-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1024 : Shape := ⟨2, ![100000, 1024]⟩
abbrev S100000x4 : Shape := ⟨2, ![100000, 4]⟩
abbrev S100000 : Shape := ⟨1, ![100000]⟩
abbrev S128 : Shape := ⟨1, ![128]⟩
abbrev S128x4 : Shape := ⟨2, ![128, 4]⟩
abbrev S_ : Shape := ⟨0, ![]⟩

class Facts : Prop where
  bcast_S_S100000x1024 : S_.BroadcastsInDim S100000x1024 (![] : Fin 0 → Fin S100000x1024.rank)
  reducesTo_S100000x1024_S_d0_1 : S100000x1024.ReducesTo [0, 1] S_
  h_S_ : 0 < S_.numel
  bcast_S_S100000x4 : S_.BroadcastsInDim S100000x4 (![] : Fin 0 → Fin S100000x4.rank)
  reducesTo_S100000x4_S_d0_1 : S100000x4.ReducesTo [0, 1] S_
  bcast_S_S100000 : S_.BroadcastsInDim S100000 (![] : Fin 0 → Fin S100000.rank)
  reducesTo_S100000_S_d0 : S100000.ReducesTo [0] S_
  bcast_S_S128x4 : S_.BroadcastsInDim S128x4 (![] : Fin 0 → Fin S128x4.rank)
  reducesTo_S128x4_S_d0_1 : S128x4.ReducesTo [0, 1] S_

variable [Facts]

def fn_part1 {F : FTy → Type} [FloatOps F] (main_arg6 : FVec F S128x4 .f32) (main_v13 : IVec S_ 1) (main_v16 : IVec S100000 1) : IVec S_ 1 :=
  let main_c_5 : IVec S_ 1 := constantI S_ 1 1#1
  let main_v17 : IVec S_ 1 := (fun x v => Host.reduce IntOp.andi x v reducesTo_S100000_S_d0 h_S_) main_v16 main_c_5
  let main_v18 : IVec S_ 1 := andi main_v13 main_v17
  let main_v19 : FVec F S128x4 .f32 := Host.absf main_arg6
  let main_cst_6 : FVec F S_ .f32 := constant S_ .f32 0x7F800000#32
  let main_v20 : FVec F S128x4 .f32 := broadcastInDim S128x4 ![] bcast_S_S128x4 main_cst_6
  let main_v21 : IVec S128x4 1 := cmpf .olt main_v19 main_v20
  let main_c_7 : IVec S_ 1 := constantI S_ 1 1#1
  let main_v22 : IVec S_ 1 := (fun x v => Host.reduce IntOp.andi x v reducesTo_S128x4_S_d0_1 h_S_) main_v21 main_c_7
  let main_v23 : IVec S_ 1 := andi main_v18 main_v22
  main_v23

def fn {F : FTy → Type} [FloatOps F] (main_arg0 : FVec F S100000x1024 .f32) (main_arg1 : FVec F S100000x4 .f32) (main_arg2 : FVec F S100000 .f32) (main_arg3 : FVec F S100000 .f32) (main_arg4 : IVec S100000 32) (main_arg5 : IVec S128 32) (main_arg6 : FVec F S128x4 .f32) : IVec S_ 1 :=
  let main_v0 : FVec F S100000x1024 .f32 := Host.absf main_arg0
  let main_cst : FVec F S_ .f32 := constant S_ .f32 0x7F800000#32
  let main_v1 : FVec F S100000x1024 .f32 := broadcastInDim S100000x1024 ![] bcast_S_S100000x1024 main_cst
  let main_v2 : IVec S100000x1024 1 := cmpf .olt main_v0 main_v1
  let main_c : IVec S_ 1 := constantI S_ 1 1#1
  let main_v3 : IVec S_ 1 := (fun x v => Host.reduce IntOp.andi x v reducesTo_S100000x1024_S_d0_1 h_S_) main_v2 main_c
  let main_v4 : FVec F S100000x4 .f32 := Host.absf main_arg1
  let main_cst_0 : FVec F S_ .f32 := constant S_ .f32 0x7F800000#32
  let main_v5 : FVec F S100000x4 .f32 := broadcastInDim S100000x4 ![] bcast_S_S100000x4 main_cst_0
  let main_v6 : IVec S100000x4 1 := cmpf .olt main_v4 main_v5
  let main_c_1 : IVec S_ 1 := constantI S_ 1 1#1
  let main_v7 : IVec S_ 1 := (fun x v => Host.reduce IntOp.andi x v reducesTo_S100000x4_S_d0_1 h_S_) main_v6 main_c_1
  let main_v8 : IVec S_ 1 := andi main_v3 main_v7
  let main_v9 : FVec F S100000 .f32 := Host.absf main_arg2
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  let main_v14 : FVec F S100000 .f32 := Host.absf main_arg3
  let main_cst_4 : FVec F S_ .f32 := constant S_ .f32 0x7F800000#32
  let main_v15 : FVec F S100000 .f32 := broadcastInDim S100000 ![] bcast_S_S100000 main_cst_4
  let main_v16 : IVec S100000 1 := cmpf .olt main_v14 main_v15
  fn_part1 (F := F) main_arg6 main_v13 main_v16
-- ==== Kernel.lean ====
abbrev S100000x1024 : Shape := ⟨2, ![100000, 1024]⟩
abbrev S100000x4 : Shape := ⟨2, ![100000, 4]⟩
abbrev S100000 : Shape := ⟨1, ![100000]⟩
abbrev S128 : Shape := ⟨1, ![128]⟩
abbrev S128x4 : Shape := ⟨2, ![128, 4]⟩
abbrev S_ : Shape := ⟨0, ![]⟩
abbrev S100000x1 : Shape := ⟨2, ![100000, 1]⟩
abbrev S2x1x3 : Shape := ⟨3, ![2, 1, 3]⟩
abbrev S1000x1024 : Shape := ⟨2, ![1000, 1024]⟩
abbrev S1000x4 : Shape := ⟨2, ![1000, 4]⟩
abbrev S1x1x3 : Shape := ⟨3, ![1, 1, 3]⟩
abbrev S1000x1 : Shape := ⟨2, ![1000, 1]⟩
abbrev S1000 : Shape := ⟨1, ![1000]⟩
abbrev S1 : Shape := ⟨1, ![1]⟩
abbrev S1x1 : Shape := ⟨2, ![1, 1]⟩
abbrev S1x3 : Shape := ⟨2, ![1, 3]⟩
abbrev S2x3 : Shape := ⟨2, ![2, 3]⟩
abbrev S2x1 : Shape := ⟨2, ![2, 1]⟩
abbrev S2 : Shape := ⟨1, ![2]⟩

abbrev nBuf : Space → Nat
  | .hbm => 56
  | .vmem => 6
  | .smem => 0
  | _ => 0

abbrev bufTy : (tb : Table) → Fin (tcTables nBuf tb) → BufTy
  | .hbm, ⟨0, _⟩ => ⟨S100000x1024, .f32⟩
  | .hbm, ⟨1, _⟩ => ⟨S100000x4, .f32⟩
  | .hbm, ⟨2, _⟩ => ⟨S100000, .f32⟩
  | .hbm, ⟨3, _⟩ => ⟨S100000, .f32⟩
  | .hbm, ⟨4, _⟩ => ⟨S100000, .i32⟩
  | .hbm, ⟨5, _⟩ => ⟨S128, .i32⟩
  | .hbm, ⟨6, _⟩ => ⟨S128x4, .f32⟩
  | .hbm, ⟨7, _⟩ => ⟨S_, .i32⟩
  | .hbm, ⟨8, _⟩ => ⟨S100000, .i32⟩
  | .hbm, ⟨9, _⟩ => ⟨S100000, .i1⟩
  | .hbm, ⟨10, _⟩ => ⟨S_, .i32⟩
  | .hbm, ⟨11, _⟩ => ⟨S100000, .i32⟩
  | .hbm, ⟨12, _⟩ => ⟨S100000, .i32⟩
  | .hbm, ⟨13, _⟩ => ⟨S100000, .i32⟩
  | .hbm, ⟨14, _⟩ => ⟨S100000x1, .i32⟩
  | .hbm, ⟨15, _⟩ => ⟨S100000, .i32⟩
  | .hbm, ⟨16, _⟩ => ⟨S100000, .f32⟩
  | .hbm, ⟨17, _⟩ => ⟨S_, .i32⟩
  | .hbm, ⟨18, _⟩ => ⟨S100000, .i32⟩
  | .hbm, ⟨19, _⟩ => ⟨S100000, .i1⟩
  | .hbm, ⟨20, _⟩ => ⟨S_, .i32⟩
  | .hbm, ⟨21, _⟩ => ⟨S100000, .i32⟩
  | .hbm, ⟨22, _⟩ => ⟨S100000, .i32⟩
  | .hbm, ⟨23, _⟩ => ⟨S100000, .i32⟩
  | .hbm, ⟨24, _⟩ => ⟨S100000x1, .i32⟩
  | .hbm, ⟨25, _⟩ => ⟨S100000x4, .f32⟩
  | .hbm, ⟨26, _⟩ => ⟨S100000x4, .f32⟩
  | .hbm, ⟨27, _⟩ => ⟨S100000x4, .f32⟩
  | .hbm, ⟨28, _⟩ => ⟨S_, .f32⟩
  | .hbm, ⟨29, _⟩ => ⟨S100000, .f32⟩
  | .hbm, ⟨30, _⟩ => ⟨S100000x1, .f32⟩
  | .hbm, ⟨31, _⟩ => ⟨S100000x1, .f32⟩
  | .hbm, ⟨32, _⟩ => ⟨S100000x1, .f32⟩
  | .hbm, ⟨33, _⟩ => ⟨S100000x1, .f32⟩
  | .hbm, ⟨34, _⟩ => ⟨S100000x4, .f32⟩
  | .hbm, ⟨35, _⟩ => ⟨S2x1x3, .f32⟩
  | .hbm, ⟨36, _⟩ => ⟨S2x3, .f32⟩
  | .hbm, ⟨37, _⟩ => ⟨S2x1, .f32⟩
  | .hbm, ⟨38, _⟩ => ⟨S2, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S2x1, .f32⟩
  | .hbm, ⟨43, _⟩ => ⟨S2, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S2x1, .f32⟩
  | .hbm, ⟨48, _⟩ => ⟨S2, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S1, .f32⟩
  | .local _ .vmem, ⟨0, _⟩ => ⟨S1000x1024, .f32⟩
  | .local _ .vmem, ⟨1, _⟩ => ⟨S1000x1024, .f32⟩
  | .local _ .vmem, ⟨2, _⟩ => ⟨S1000x4, .f32⟩
  | .local _ .vmem, ⟨3, _⟩ => ⟨S1000x4, .f32⟩
  | .local _ .vmem, ⟨4, _⟩ => ⟨S1x1x3, .f32⟩
  | .local _ .vmem, ⟨5, _⟩ => ⟨S1x1x3, .f32⟩
  | _, _ => ⟨S100000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 50], ![false, false]⟩

def cc0_transform_0 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1000x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1000x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  reducesTo_S100000x4_S100000_d1 : S100000x4.ReducesTo [1] S100000
  h_S_ : 0 < S_.numel
  concatenates_S100000x1_S100000x1_S100000x1_S100000x1_S100000x4_d1 : Shape.Concatenates [S100000x1, S100000x1, S100000x1, S100000x1] S100000x4 1
  inb_S1x1x3_S1x1x3_0_0_0 : ∀ a, (![0, 0, 0] : Fin 3 → Nat) a + S1x1x3.size a ≤ S1x1x3.size a
  h_S1x1x3 : 0 < S1x1x3.numel
  inb_S1000x1024_S1000x1024_0_0 : ∀ a, (![0, 0] : Fin 2 → Nat) a + S1000x1024.size a ≤ S1000x1024.size a
  h_S1000x1024 : 0 < S1000x1024.numel
  inb_S1000x4_S1000x4_0_0 : ∀ a, (![0, 0] : Fin 2 → Nat) a + S1000x4.size a ≤ S1000x4.size a
  h_S1000x4 : 0 < S1000x4.numel
  shapeCasts_S1000x4_S1000x4 : S1000x4.ShapeCasts S1000x4
  slices_S1000x4_o0_3_S1000x1 : S1000x4.Slices ![0, 3] S1000x1
  iota_S1000x1024_d1_w32 : S1000x1024.Iotas .tc 32 [1]
  broadcasts_S1000x1_S1000x1024 : S1000x1.Broadcasts S1000x1024
  reduces_S1000x1024_S1000 : S1000x1024.Reduces [1] S1000
  shapeCasts_S1000_S1000x1 : S1000.ShapeCasts S1000x1
  slices_S1000x4_o0_0_S1000x1 : S1000x4.Slices ![0, 0] S1000x1
  slices_S1000x4_o0_1_S1000x1 : S1000x4.Slices ![0, 1] S1000x1
  slices_S1000x4_o0_2_S1000x1 : S1000x4.Slices ![0, 2] S1000x1
  reduces_S1000x1_S1 : S1000x1.Reduces [0] S1
  shapeCasts_S1_S1x1 : S1.ShapeCasts S1x1
  concatenates_S1x1_S1x1_S1x1_S1x3_d1 : Shape.Concatenates [S1x1, S1x1, S1x1] S1x3 1
  shapeCasts_S1x1x3_S1x1x3 : S1x1x3.ShapeCasts S1x1x3
  shapeCasts_S1x3_S1x1x3 : S1x3.ShapeCasts S1x1x3
  shapeCasts_S2x1x3_S2x3 : S2x1x3.ShapeCasts S2x3
  slices_S2x3_S2x1_0_0 : S2x3.Slices ![0, 0] S2x1
  shapeCasts_S2x1_S2 : S2x1.ShapeCasts S2
  reducesTo_S2_S_d0 : S2.ReducesTo [0] S_
  slices_S2x3_S2x1_0_1 : S2x3.Slices ![0, 1] S2x1
  slices_S2x3_S2x1_0_2 : S2x3.Slices ![0, 2] S2x1
  shapeCasts_S_S1 : S_.ShapeCasts S1
  gather_S128_S100000x1_S100000_n_0_n_n_0_1_1_wf : GatherDims.WF S128 S100000x1 S100000 [] [0] [] [0] [] 1 ![1]
  gather_S128x4_S100000x1_S100000x4_1_0_n_n_0_1_14_wf : GatherDims.WF S128x4 S100000x1 S100000x4 [1] [0] [] [0] [] 1 ![1, 4]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x1024.size a ≤ S100000x1024.size a
  hwx0_0 : ∀ i : grid0.Coords, EltTy.bits .f32 = 32 ∨ (Rect.block (s := S100000x1024) S1000x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x4.size a ≤ S100000x4.size a
  hwx0_1 : ∀ i : grid0.Coords, EltTy.bits .f32 = 32 ∨ (Rect.block (s := S100000x4) S1000x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x3.size a ≤ S2x1x3.size a
  hwx0_2 : ∀ i : grid0.Coords, EltTy.bits .f32 = 32 ∨ (Rect.block (s := S2x1x3) S1x1x3.size (cc0_transform_2 i) (hinb0_2 i)).WholeWords (EltTy.packing .f32)

variable [Facts₀]

def gather_S128_S100000x1_S100000_n_0_n_n_0_1_1 : GatherDims S128 S100000x1 S100000 where
  offsetDims := []
  collapsedSliceDims := [0]
  operandBatchingDims := []
  startIndicesBatchingDims := []
  startIndexMap := [0]
  indexVectorDim := 1
  sliceSizes := ![1]
  wf := gather_S128_S100000x1_S100000_n_0_n_n_0_1_1_wf
def gather_S128x4_S100000x1_S100000x4_1_0_n_n_0_1_14 : GatherDims S128x4 S100000x1 S100000x4 where
  offsetDims := [1]
  collapsedSliceDims := [0]
  operandBatchingDims := []
  startIndicesBatchingDims := []
  startIndexMap := [0]
  indexVectorDim := 1
  sliceSizes := ![1, 4]
  wf := gather_S128x4_S100000x1_S100000x4_1_0_n_n_0_1_14_wf

abbrev win0_0 : Pipeline.Window sig grid0 :=
  Pipeline.Window.ofSpec (Memref.whole main_arg0) S1000x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S1000x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1x1x3.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x1024 : Shape := ⟨2, ![100000, 1024]⟩
abbrev S100000x4 : Shape := ⟨2, ![100000, 4]⟩
abbrev S100000 : Shape := ⟨1, ![100000]⟩
abbrev S128 : Shape := ⟨1, ![128]⟩
abbrev S128x4 : Shape := ⟨2, ![128, 4]⟩
abbrev S_ : Shape := ⟨0, ![]⟩
abbrev S100000x1 : Shape := ⟨2, ![100000, 1]⟩
abbrev S1024 : Shape := ⟨1, ![1024]⟩
abbrev S1x1024 : Shape := ⟨2, ![1, 1024]⟩
abbrev S1 : Shape := ⟨1, ![1]⟩

abbrev nBuf : Space → Nat
  | .hbm => 57
  | .vmem => 0
  | .smem => 0
  | _ => 0

abbrev bufTy : (tb : Table) → Fin (tcTables nBuf tb) → BufTy
  | .hbm, ⟨0, _⟩ => ⟨S100000x1024, .f32⟩
  | .hbm, ⟨1, _⟩ => ⟨S100000x4, .f32⟩
  | .hbm, ⟨2, _⟩ => ⟨S100000, .f32⟩
  | .hbm, ⟨3, _⟩ => ⟨S100000, .f32⟩
  | .hbm, ⟨4, _⟩ => ⟨S100000, .i32⟩
  | .hbm, ⟨5, _⟩ => ⟨S128, .i32⟩
  | .hbm, ⟨6, _⟩ => ⟨S128x4, .f32⟩
  | .hbm, ⟨7, _⟩ => ⟨S_, .i32⟩
  | .hbm, ⟨8, _⟩ => ⟨S100000, .i32⟩
  | .hbm, ⟨9, _⟩ => ⟨S100000, .i1⟩
  | .hbm, ⟨10, _⟩ => ⟨S_, .i32⟩
  | .hbm, ⟨11, _⟩ => ⟨S100000, .i32⟩
  | .hbm, ⟨12, _⟩ => ⟨S100000, .i32⟩
  | .hbm, ⟨13, _⟩ => ⟨S100000, .i32⟩
  | .hbm, ⟨14, _⟩ => ⟨S100000x1, .i32⟩
  | .hbm, ⟨15, _⟩ => ⟨S100000, .i32⟩
  | .hbm, ⟨16, _⟩ => ⟨S1024, .i32⟩
  | .hbm, ⟨17, _⟩ => ⟨S1x1024, .i32⟩
  | .hbm, ⟨18, _⟩ => ⟨S100000x1, .i32⟩
  | .hbm, ⟨19, _⟩ => ⟨S100000x1024, .i32⟩
  | .hbm, ⟨20, _⟩ => ⟨S100000x1024, .i32⟩
  | .hbm, ⟨21, _⟩ => ⟨S100000x1024, .i1⟩
  | .hbm, ⟨22, _⟩ => ⟨S_, .f32⟩
  | .hbm, ⟨23, _⟩ => ⟨S100000x1024, .f32⟩
  | .hbm, ⟨24, _⟩ => ⟨S100000x1024, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .i32⟩
  | .hbm, ⟨37, _⟩ => ⟨S100000, .i32⟩
  | .hbm, ⟨38, _⟩ => ⟨S100000, .i1⟩
  | .hbm, ⟨39, _⟩ => ⟨S_, .i32⟩
  | .hbm, ⟨40, _⟩ => ⟨S100000, .i32⟩
  | .hbm, ⟨41, _⟩ => ⟨S100000, .i32⟩
  | .hbm, ⟨42, _⟩ => ⟨S100000, .i32⟩
  | .hbm, ⟨43, _⟩ => ⟨S100000x1, .i32⟩
  | .hbm, ⟨44, _⟩ => ⟨S100000x4, .f32⟩
  | .hbm, ⟨45, _⟩ => ⟨S100000x4, .f32⟩
  | .hbm, ⟨46, _⟩ => ⟨S100000x4, .f32⟩
  | .hbm, ⟨47, _⟩ => ⟨S_, .f32⟩
  | .hbm, ⟨48, _⟩ => ⟨S100000, .f32⟩
  | .hbm, ⟨49, _⟩ => ⟨S100000, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S1, .f32⟩
  | _, _ => ⟨S100000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_call0_v0 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S1024_S1x1024_1 : S1024.BroadcastsInDim S1x1024 (![1] : Fin 1 → Fin S1x1024.rank)
  bcast_S1x1024_S100000x1024_0_1 : S1x1024.BroadcastsInDim S100000x1024 (![0, 1] : Fin 2 → Fin S100000x1024.rank)
  bcast_S100000x1_S100000x1024_0_1 : S100000x1.BroadcastsInDim S100000x1024 (![0, 1] : Fin 2 → Fin S100000x1024.rank)
  bcast_S_S100000x1024 : S_.BroadcastsInDim S100000x1024 (![] : Fin 0 → Fin S100000x1024.rank)
  reducesTo_S100000x1024_S100000_d1 : S100000x1024.ReducesTo [1] S100000
  h_S_ : 0 < S_.numel
  reducesTo_S100000_S_d0 : S100000.ReducesTo [0] S_
  reducesTo_S100000x4_S100000_d1 : S100000x4.ReducesTo [1] S100000
  shapeCasts_S_S1 : S_.ShapeCasts S1
  gather_S128_S100000x1_S100000_n_0_n_n_0_1_1_wf : GatherDims.WF S128 S100000x1 S100000 [] [0] [] [0] [] 1 ![1]
  gather_S128x4_S100000x1_S100000x4_1_0_n_n_0_1_14_wf : GatherDims.WF S128x4 S100000x1 S100000x4 [1] [0] [] [0] [] 1 ![1, 4]

variable [Facts₀]

def gather_S128_S100000x1_S100000_n_0_n_n_0_1_1 : GatherDims S128 S100000x1 S100000 where
  offsetDims := []
  collapsedSliceDims := [0]
  operandBatchingDims := []
  startIndicesBatchingDims := []
  startIndexMap := [0]
  indexVectorDim := 1
  sliceSizes := ![1]
  wf := gather_S128_S100000x1_S100000_n_0_n_n_0_1_1_wf
def gather_S128x4_S100000x1_S100000x4_1_0_n_n_0_1_14 : GatherDims S128x4 S100000x1 S100000x4 where
  offsetDims := [1]
  collapsedSliceDims := [0]
  operandBatchingDims := []
  startIndicesBatchingDims := []
  startIndexMap := [0]
  indexVectorDim := 1
  sliceSizes := ![1, 4]
  wf := gather_S128x4_S100000x1_S100000x4_1_0_n_n_0_1_14_wf

class Facts : Prop extends Facts₀ where

variable [Facts]
-- ==== Proof.K.Around.lean ====
/-
  The host side of the program around its one pallas_call, at any float instance.
  The program is: 28 host lines (two table gathers by the nearest-box index, the squared box distance,
  and the four per-row columns z, r, dist, label laid side by side into one [100000, 4] array), the
  pallas_call over a 2 x 50 grid of 1000-row blocks, and 20 host lines that add the two per-core rows
  of partial sums and combine them into the loss.
  Here: the buffer contents when the region is entered (the fold of the 28 lines over the launch
  memory), the program as "lines, region, lines", that no line writes an argument array, each
  window's block of its array, that an input's staging buffer holds its block at every grid point,
  the branch condition of the body (second grid coordinate zero) decided over the 100 points, and the
  frame claim's post read off a run that names every array.
-/
import proofs.«116378_j19963007991831_2_alg».proof.Proof.Gen.Kernel.Launch
import proofs.«116378_j19963007991831_2_alg».proof.Proof.Gen.Kernel.Skeleton
import proofs.«116378_j19963007991831_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- Core `c`'s buffer contents when the region is entered: the launch memory after the 28 host lines. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- No host line allocates. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the lines before the region, the region, and the lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The lines after the region touch only the pipeline's arrays and the buffers that bypass it, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and write no array of the pipeline (each writes its own result buffer). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.reshape_writes, StableHlo.nary_writes, Finset.mem_singleton] <;> exact StableHlo.devRef_ne_of_ne (by decide)

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- No host line after the region writes argument 1, and it is no array of the pipeline: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- No host line after the region writes argument 2, and it is no array of the pipeline: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- No host line after the region writes argument 3, and it is no array of the pipeline: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host line before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- No host line after the region writes argument 4, and it is no array of the pipeline: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host line before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- No host line after the region writes argument 5, and it is no array of the pipeline: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host line before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- No host line after the region writes argument 6, and it is no array of the pipeline: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, for any proof data over
    these arrays whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run that names the arrays -/

/-- A run whose post has every array of the pipeline at the proof data's final contents and every
    other buffer as the lines after the region leave it ends with the seven argument arrays as
    launched: argument 0 is an input window's array, the other six bypass the pipeline. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).1 0).trans (((dats 0 c).arrAt_in 0 rfl _).trans ((hA c 0).trans (V_main_arg0 m c))),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c),
     ((h c).2 main_arg4 (Pipeline.mem_restRefs_of main_arg4 (by decide) (by decide))).trans (W_main_arg4 m dats c),
     ((h c).2 main_arg5 (Pipeline.mem_restRefs_of main_arg5 (by decide) (by decide))).trans (W_main_arg5 m dats c),
     ((h c).2 main_arg6 (Pipeline.mem_restRefs_of main_arg6 (by decide) (by decide))).trans (W_main_arg6 m dats c)⟩) h

/-! ## The body's branch -/

/-- The body's one branch: the second grid coordinate is zero (the accumulator row is reset there). -/
abbrev cond0_0 (i : grid0.Coords) : Prop := (Scalar.cmpi .ne (Scalar.extui (Scalar.cmpi .eq (BitVec.ofNat 32 (i 1).val) 0#32)) 0#32) = 1#1
/-- Over the 100 grid points in row-major order that is: the point's number is a multiple of 50. -/
theorem hcond0_0 : ∀ t : Fin cfg0.N, cond0_0 (grid0.coords t) ↔ t.val % 50 = 0 :=
  (by decide +kernel : ∀ t : Fin grid0.N, cond0_0 (grid0.coords t) ↔ t.val % 50 = 0)

/-! ## The staging memrefs the body is called with -/

/-- One staging buffer of the output window, through which its contents are stated. -/
abbrev VO0_2 : View sig .tc .vmem S1x1x3 .f32 := (Memref.whole cc0_stg2_0 : Memref sig .tc .vmem S1x1x3 .f32).view
abbrev ms0_0 (t : Fin cfg0.N) : Memref sig .tc .vmem S1000x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1000x4 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x3 .f32 := win0_2.stage (cfg0.slots t 2)
abbrev hs0_2 (t : Fin cfg0.N) : (ms0_2 t).IsWhole := hstage0_2 ((cfg0.slots t 2).cast nbuf0_2)

end Cert.Kernel.Fr

end
-- ==== Proof.K.RunA.lean ====
/-
  The kernel body at a grid point whose second coordinate is zero, at any float instance: on whole
  staging memrefs, the two inputs at given contents and the output row at anything, it runs to the
  end; the inputs are left as they were and the output row ends as its stores leave it (first the
  zero row, then zero row plus the block's three partial sums).
-/
import proofs.«116378_j19963007991831_2_alg».proof.Proof.K.Around

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 1000000 in
/-- The stores the body leaves in the output row's memref at a resetting point, with the body's
    triple there. -/
noncomputable def kernelRun0_A (c : Dev nD) (i : grid0.Coords) (arg2 : Memref sig .tc .vmem S1000x1024 .f32) (harg2 : arg2.IsWhole) (arg3 : Memref sig .tc .vmem S1000x4 .f32) (harg3 : arg3.IsWhole) (arg4 : Memref sig .tc .vmem S1x1x3 .f32) (harg4 : arg4.IsWhole) (hc0 : cond0_0 i)
    (x0 : Vec F S1000x1024 .f32) (x1 : Vec F S1000x4 .f32) :
    { L2 : List (View.Piece (Elt F) S1x1x3 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc0__bploss_kernel i arg2 harg2 arg3 harg3 arg4 harg4) K } := by
  refine ⟨?_, fun E K => ?run⟩
  case run =>
    simp only [cc0__bploss_kernel_eq_skeleton]; unfold cc0__bploss_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Fr

end
-- ==== Proof.K.RunB.lean ====
/-
  The kernel body at a grid point whose second coordinate is not zero, at any float instance: on
  whole staging memrefs, the two inputs and the output row at given contents, it runs to the end;
  the inputs are left as they were and the output row ends as its one store leaves it (the row it
  held plus the block's three partial sums).
-/
import proofs.«116378_j19963007991831_2_alg».proof.Proof.K.RunA

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 1000000 in
/-- The store the body leaves in the output row's memref at an accumulating point, with the body's
    triple there. -/
noncomputable def kernelRun0_B (c : Dev nD) (i : grid0.Coords) (arg2 : Memref sig .tc .vmem S1000x1024 .f32) (harg2 : arg2.IsWhole) (arg3 : Memref sig .tc .vmem S1000x4 .f32) (harg3 : arg3.IsWhole) (arg4 : Memref sig .tc .vmem S1x1x3 .f32) (harg4 : arg4.IsWhole) (hc0 : ¬cond0_0 i)
    (x0 : Vec F S1000x1024 .f32) (x1 : Vec F S1000x4 .f32) (xo2 : Vec F S1x1x3 .f32) :
    { L2 : List (View.Piece (Elt F) S1x1x3 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc0__bploss_kernel i arg2 harg2 arg3 harg3 arg4 harg4) K } := by
  refine ⟨?_, fun E K => ?run⟩
  case run =>
    simp only [cc0__bploss_kernel_eq_skeleton]; unfold cc0__bploss_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Fr

end
-- ==== Proof.K.Frame.lean ====
/-
  The pallas_call's run and the program's frame, at any float instance.
  The output window's block index is the first grid coordinate, so over the 50 points of one core's
  range the same three-entry row stays in its staging buffer: the body resets it at the range's first
  point and adds the block's three partial sums at every point, and the pipeline writes it back after
  the range's last point (points 49 and 99). What the row holds after point n is therefore defined by
  recursion on n: at a multiple of 50 what the resetting case leaves, otherwise what the
  accumulating case leaves over the row of point n - 1. With that as the proof data the body's
  triple holds at every point, the launch theorem for "lines, region, lines" gives a run that names
  every array, and the frame follows.
-/
import proofs.«116378_j19963007991831_2_alg».proof.Proof.K.RunB

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the output row -/

/-- The resetting case's stores (two whole-row stores) cover the row. -/
theorem cover0_A_2 (c : Dev nD) (i : grid0.Coords) (arg2 : Memref sig .tc .vmem S1000x1024 .f32) (harg2 : arg2.IsWhole) (arg3 : Memref sig .tc .vmem S1000x4 .f32) (harg3 : arg3.IsWhole) (arg4 : Memref sig .tc .vmem S1x1x3 .f32) (harg4 : arg4.IsWhole) (hc0 : cond0_0 i)
    (x0 : Vec F S1000x1024 .f32) (x1 : Vec F S1000x4 .f32) (y : S1x1x3.Idx) :
    ∃ pc ∈ (kernelRun0_A c i arg2 harg2 arg3 harg3 arg4 harg4 hc0 x0 x1).1, y ∈ pc.1.set :=
  View.cover_of_tiledL (kernelRun0_A c i arg2 harg2 arg3 harg3 arg4 harg4 hc0 x0 x1).1 S1x1x3.size (by sl_kernel_rfl) y

/-- The row after a resetting point: its stores read back. -/
def out0_A_2 (c : Dev nD) (i : grid0.Coords) (arg2 : Memref sig .tc .vmem S1000x1024 .f32) (harg2 : arg2.IsWhole) (arg3 : Memref sig .tc .vmem S1000x4 .f32) (harg3 : arg3.IsWhole) (arg4 : Memref sig .tc .vmem S1x1x3 .f32) (harg4 : arg4.IsWhole) (hc0 : cond0_0 i)
    (x0 : Vec F S1000x1024 .f32) (x1 : Vec F S1000x4 .f32) : Vec F S1x1x3 .f32 :=
  VO0_2.read (Elt F) (VO0_2.writes (Elt F) VO0_2.junk (kernelRun0_A c i arg2 harg2 arg3 harg3 arg4 harg4 hc0 x0 x1).1)

/-- The accumulating case's one whole-row store covers the row. -/
theorem cover0_B_2 (c : Dev nD) (i : grid0.Coords) (arg2 : Memref sig .tc .vmem S1000x1024 .f32) (harg2 : arg2.IsWhole) (arg3 : Memref sig .tc .vmem S1000x4 .f32) (harg3 : arg3.IsWhole) (arg4 : Memref sig .tc .vmem S1x1x3 .f32) (harg4 : arg4.IsWhole) (hc0 : ¬cond0_0 i)
    (x0 : Vec F S1000x1024 .f32) (x1 : Vec F S1000x4 .f32) (xo2 : Vec F S1x1x3 .f32) (y : S1x1x3.Idx) :
    ∃ pc ∈ (kernelRun0_B c i arg2 harg2 arg3 harg3 arg4 harg4 hc0 x0 x1 xo2).1, y ∈ pc.1.set :=
  View.cover_of_tiledL (kernelRun0_B c i arg2 harg2 arg3 harg3 arg4 harg4 hc0 x0 x1 xo2).1 S1x1x3.size (by sl_kernel_rfl) y

/-- The row after an accumulating point that found it at `xo2`: its store read back. -/
def out0_B_2 (c : Dev nD) (i : grid0.Coords) (arg2 : Memref sig .tc .vmem S1000x1024 .f32) (harg2 : arg2.IsWhole) (arg3 : Memref sig .tc .vmem S1000x4 .f32) (harg3 : arg3.IsWhole) (arg4 : Memref sig .tc .vmem S1x1x3 .f32) (harg4 : arg4.IsWhole) (hc0 : ¬cond0_0 i)
    (x0 : Vec F S1000x1024 .f32) (x1 : Vec F S1000x4 .f32) (xo2 : Vec F S1x1x3 .f32) : Vec F S1x1x3 .f32 :=
  VO0_2.read (Elt F) (VO0_2.writes (Elt F) VO0_2.junk (kernelRun0_B c i arg2 harg2 arg3 harg3 arg4 harg4 hc0 x0 x1 xo2).1)

/-! ## The row point by point -/

/-- What the output row's staging buffer holds after the body at point `n`. -/
def outsAt0 (c : Dev nD) : (n : ℕ) → n < cfg0.N → Vec F S1x1x3 .f32
  | 0, hn => out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (iblk m c 0 ⟨0, hn⟩) (iblk m c 1 ⟨0, hn⟩)
  | n + 1, hn =>
    if h0 : (n + 1) % 50 = 0 then
      out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (iblk m c 0 ⟨n + 1, hn⟩) (iblk m c 1 ⟨n + 1, hn⟩)
    else
      out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn))

/-- At a resetting point. -/
theorem outsAt0_A (c : Dev nD) (t : Fin cfg0.N) (h0 : t.val % 50 = 0) :
    outsAt0 m c t.val t.isLt = out0_A_2 c (grid0.coords t) (ms0_0 t) (hs0_0 t) (ms0_1 t) (hs0_1 t) (ms0_2 t) (hs0_2 t) ((hcond0_0 t).mpr h0) (iblk m c 0 t) (iblk m c 1 t) := by
  obtain ⟨n, hn⟩ := t
  cases n with
  | zero => exact rfl
  | succ n => exact (dif_pos h0).trans rfl

/-- At an accumulating point: over the row of the point before. -/
theorem outsAt0_B (c : Dev nD) (t : Fin cfg0.N) (h0 : ¬t.val % 50 = 0) :
    outsAt0 m c t.val t.isLt = out0_B_2 c (grid0.coords t) (ms0_0 t) (hs0_0 t) (ms0_1 t) (hs0_1 t) (ms0_2 t) (hs0_2 t) (fun h => h0 ((hcond0_0 t).mp h)) (iblk m c 0 t) (iblk m c 1 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` each input's buffer at its block
    and the output row at `outsAt0`; the invariant is the scoped rest and the generator register;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- At an accumulating point the output row's buffer holds what the point before left: the point is
    not the first, and the row was not written back between (write-backs follow points 49 and 99). -/
theorem before0_2_B (c : Dev nD) (t : Fin cfg0.N) (h0 : ¬t.val % 50 = 0) (d) :
    (dats m 0 c).before 2 t d = (outsAt0 m c (t.val - 1) (Nat.lt_of_le_of_lt (Nat.sub_le _ _) t.isLt)) := by
  have hN : t.val < 100 := lt_of_lt_of_eq t.isLt (show cfg0.N = 100 from N_0)
  rw [Dat.before_out_kept _ 2 rfl t (by omega) (Bool.eq_false_iff.mpr fun h => by have := (flush0_2 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

set_option maxHeartbeats 800000 in
/-- The body at any point: the inputs' memrefs hold their blocks; the point's number says which case
    it is in; at an accumulating point the row holds what the point before left; the case's run
    applies, and the invariant passes through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  have hN : t.val < 100 := lt_of_lt_of_eq t.isLt (show cfg0.N = 100 from N_0)
  by_cases h0 : t.val % 50 = 0
  · rw [outsAt0_A m c t h0]
    unfold out0_A_2
    iintro ⟨HΦ, Ho, ⟨%d0, H0⟩, ⟨%d1, H1⟩, ⟨%d2, H2⟩⟩
    iapply ((kernelRun0_A c (grid0.coords t) _ _ _ _ _ _ ((hcond0_0 t).mpr h0) (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_A_2 c _ _ _ _ _ _ _ _ _ _)
  · rw [outsAt0_B m c t h0]
    simp only [before0_2_B m c t h0]
    unfold out0_B_2
    iintro ⟨HΦ, Ho, ⟨%d0, H0⟩, ⟨%d1, H1⟩, ⟨%d2, H2⟩⟩
    iapply ((kernelRun0_B c (grid0.coords t) _ _ _ _ _ _ (fun h => h0 ((hcond0_0 t).mp h)) (iblk m c 0 t) (iblk m c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates without a fault, every array of the
    pipeline ends at the proof data's final contents, and every other unscoped buffer as the 20 lines
    after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end and its seven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.Fr

end
-- ==== Proof.KI.Around.lean ====
/-
  The host side of the program around its one pallas_call, at any float instance.
  The program is: 28 host lines (two table gathers by the nearest-box index, the squared box distance,
  and the four per-row columns z, r, dist, label laid side by side into one [100000, 4] array), the
  pallas_call over a 2 x 50 grid of 1000-row blocks, and 20 host lines that add the two per-core rows
  of partial sums and combine them into the loss.
  Here: the buffer contents when the region is entered (the fold of the 28 lines over the launch
  memory), the program as "lines, region, lines", that no line writes an argument array, each
  window's block of its array, that an input's staging buffer holds its block at every grid point,
  the branch condition of the body (second grid coordinate zero) decided over the 100 points, and the
  frame claim's post read off a run that names every array.
-/
import proofs.«116378_j19963007991831_2_alg».proof.Proof.Gen.KernelIdeal.Launch
import proofs.«116378_j19963007991831_2_alg».proof.Proof.Gen.KernelIdeal.Skeleton
import proofs.«116378_j19963007991831_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- Core `c`'s buffer contents when the region is entered: the launch memory after the 28 host lines. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- No host line allocates. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the lines before the region, the region, and the lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The lines after the region touch only the pipeline's arrays and the buffers that bypass it, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and write no array of the pipeline (each writes its own result buffer). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.reshape_writes, StableHlo.nary_writes, Finset.mem_singleton] <;> exact StableHlo.devRef_ne_of_ne (by decide)

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- No host line after the region writes argument 1, and it is no array of the pipeline: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- No host line after the region writes argument 2, and it is no array of the pipeline: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- No host line after the region writes argument 3, and it is no array of the pipeline: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host line before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- No host line after the region writes argument 4, and it is no array of the pipeline: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host line before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- No host line after the region writes argument 5, and it is no array of the pipeline: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host line before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- No host line after the region writes argument 6, and it is no array of the pipeline: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, for any proof data over
    these arrays whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run that names the arrays -/

/-- A run whose post has every array of the pipeline at the proof data's final contents and every
    other buffer as the lines after the region leave it ends with the seven argument arrays as
    launched: argument 0 is an input window's array, the other six bypass the pipeline. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).1 0).trans (((dats 0 c).arrAt_in 0 rfl _).trans ((hA c 0).trans (V_main_arg0 m c))),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c),
     ((h c).2 main_arg4 (Pipeline.mem_restRefs_of main_arg4 (by decide) (by decide))).trans (W_main_arg4 m dats c),
     ((h c).2 main_arg5 (Pipeline.mem_restRefs_of main_arg5 (by decide) (by decide))).trans (W_main_arg5 m dats c),
     ((h c).2 main_arg6 (Pipeline.mem_restRefs_of main_arg6 (by decide) (by decide))).trans (W_main_arg6 m dats c)⟩) h

/-! ## The body's branch -/

/-- The body's one branch: the second grid coordinate is zero (the accumulator row is reset there). -/
abbrev cond0_0 (i : grid0.Coords) : Prop := (Scalar.cmpi .ne (Scalar.extui (Scalar.cmpi .eq (BitVec.ofNat 32 (i 1).val) 0#32)) 0#32) = 1#1
/-- Over the 100 grid points in row-major order that is: the point's number is a multiple of 50. -/
theorem hcond0_0 : ∀ t : Fin cfg0.N, cond0_0 (grid0.coords t) ↔ t.val % 50 = 0 :=
  (by decide +kernel : ∀ t : Fin grid0.N, cond0_0 (grid0.coords t) ↔ t.val % 50 = 0)

/-! ## The staging memrefs the body is called with -/

/-- One staging buffer of the output window, through which its contents are stated. -/
abbrev VO0_2 : View sig .tc .vmem S1x1x3 .f32 := (Memref.whole cc0_stg2_0 : Memref sig .tc .vmem S1x1x3 .f32).view
abbrev ms0_0 (t : Fin cfg0.N) : Memref sig .tc .vmem S1000x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1000x4 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x3 .f32 := win0_2.stage (cfg0.slots t 2)
abbrev hs0_2 (t : Fin cfg0.N) : (ms0_2 t).IsWhole := hstage0_2 ((cfg0.slots t 2).cast nbuf0_2)

end Cert.KernelIdeal.Fr

end
-- ==== Proof.KI.RunA.lean ====
/-
  The kernel body at a grid point whose second coordinate is zero, at any float instance: on whole
  staging memrefs, the two inputs at given contents and the output row at anything, it runs to the
  end; the inputs are left as they were and the output row ends as its stores leave it (first the
  zero row, then zero row plus the block's three partial sums).
-/
import proofs.«116378_j19963007991831_2_alg».proof.Proof.KI.Around

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 1000000 in
/-- The stores the body leaves in the output row's memref at a resetting point, with the body's
    triple there. -/
noncomputable def kernelRun0_A (c : Dev nD) (i : grid0.Coords) (arg2 : Memref sig .tc .vmem S1000x1024 .f32) (harg2 : arg2.IsWhole) (arg3 : Memref sig .tc .vmem S1000x4 .f32) (harg3 : arg3.IsWhole) (arg4 : Memref sig .tc .vmem S1x1x3 .f32) (harg4 : arg4.IsWhole) (hc0 : cond0_0 i)
    (x0 : Vec F S1000x1024 .f32) (x1 : Vec F S1000x4 .f32) :
    { L2 : List (View.Piece (Elt F) S1x1x3 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc0__bploss_kernel i arg2 harg2 arg3 harg3 arg4 harg4) K } := by
  refine ⟨?_, fun E K => ?run⟩
  case run =>
    simp only [cc0__bploss_kernel_eq_skeleton]; unfold cc0__bploss_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Fr

end
-- ==== Proof.KI.RunB.lean ====
/-
  The kernel body at a grid point whose second coordinate is not zero, at any float instance: on
  whole staging memrefs, the two inputs and the output row at given contents, it runs to the end;
  the inputs are left as they were and the output row ends as its one store leaves it (the row it
  held plus the block's three partial sums).
-/
import proofs.«116378_j19963007991831_2_alg».proof.Proof.KI.RunA

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 1000000 in
/-- The store the body leaves in the output row's memref at an accumulating point, with the body's
    triple there. -/
noncomputable def kernelRun0_B (c : Dev nD) (i : grid0.Coords) (arg2 : Memref sig .tc .vmem S1000x1024 .f32) (harg2 : arg2.IsWhole) (arg3 : Memref sig .tc .vmem S1000x4 .f32) (harg3 : arg3.IsWhole) (arg4 : Memref sig .tc .vmem S1x1x3 .f32) (harg4 : arg4.IsWhole) (hc0 : ¬cond0_0 i)
    (x0 : Vec F S1000x1024 .f32) (x1 : Vec F S1000x4 .f32) (xo2 : Vec F S1x1x3 .f32) :
    { L2 : List (View.Piece (Elt F) S1x1x3 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc0__bploss_kernel i arg2 harg2 arg3 harg3 arg4 harg4) K } := by
  refine ⟨?_, fun E K => ?run⟩
  case run =>
    simp only [cc0__bploss_kernel_eq_skeleton]; unfold cc0__bploss_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Fr

end
-- ==== Proof.KI.Frame.lean ====
/-
  The pallas_call's run and the program's frame, at any float instance.
  The output window's block index is the first grid coordinate, so over the 50 points of one core's
  range the same three-entry row stays in its staging buffer: the body resets it at the range's first
  point and adds the block's three partial sums at every point, and the pipeline writes it back after
  the range's last point (points 49 and 99). What the row holds after point n is therefore defined by
  recursion on n: at a multiple of 50 what the resetting case leaves, otherwise what the
  accumulating case leaves over the row of point n - 1. With that as the proof data the body's
  triple holds at every point, the launch theorem for "lines, region, lines" gives a run that names
  every array, and the frame follows.
-/
import proofs.«116378_j19963007991831_2_alg».proof.Proof.KI.RunB

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the output row -/

/-- The resetting case's stores (two whole-row stores) cover the row. -/
theorem cover0_A_2 (c : Dev nD) (i : grid0.Coords) (arg2 : Memref sig .tc .vmem S1000x1024 .f32) (harg2 : arg2.IsWhole) (arg3 : Memref sig .tc .vmem S1000x4 .f32) (harg3 : arg3.IsWhole) (arg4 : Memref sig .tc .vmem S1x1x3 .f32) (harg4 : arg4.IsWhole) (hc0 : cond0_0 i)
    (x0 : Vec F S1000x1024 .f32) (x1 : Vec F S1000x4 .f32) (y : S1x1x3.Idx) :
    ∃ pc ∈ (kernelRun0_A c i arg2 harg2 arg3 harg3 arg4 harg4 hc0 x0 x1).1, y ∈ pc.1.set :=
  View.cover_of_tiledL (kernelRun0_A c i arg2 harg2 arg3 harg3 arg4 harg4 hc0 x0 x1).1 S1x1x3.size (by sl_kernel_rfl) y

/-- The row after a resetting point: its stores read back. -/
def out0_A_2 (c : Dev nD) (i : grid0.Coords) (arg2 : Memref sig .tc .vmem S1000x1024 .f32) (harg2 : arg2.IsWhole) (arg3 : Memref sig .tc .vmem S1000x4 .f32) (harg3 : arg3.IsWhole) (arg4 : Memref sig .tc .vmem S1x1x3 .f32) (harg4 : arg4.IsWhole) (hc0 : cond0_0 i)
    (x0 : Vec F S1000x1024 .f32) (x1 : Vec F S1000x4 .f32) : Vec F S1x1x3 .f32 :=
  VO0_2.read (Elt F) (VO0_2.writes (Elt F) VO0_2.junk (kernelRun0_A c i arg2 harg2 arg3 harg3 arg4 harg4 hc0 x0 x1).1)

/-- The accumulating case's one whole-row store covers the row. -/
theorem cover0_B_2 (c : Dev nD) (i : grid0.Coords) (arg2 : Memref sig .tc .vmem S1000x1024 .f32) (harg2 : arg2.IsWhole) (arg3 : Memref sig .tc .vmem S1000x4 .f32) (harg3 : arg3.IsWhole) (arg4 : Memref sig .tc .vmem S1x1x3 .f32) (harg4 : arg4.IsWhole) (hc0 : ¬cond0_0 i)
    (x0 : Vec F S1000x1024 .f32) (x1 : Vec F S1000x4 .f32) (xo2 : Vec F S1x1x3 .f32) (y : S1x1x3.Idx) :
    ∃ pc ∈ (kernelRun0_B c i arg2 harg2 arg3 harg3 arg4 harg4 hc0 x0 x1 xo2).1, y ∈ pc.1.set :=
  View.cover_of_tiledL (kernelRun0_B c i arg2 harg2 arg3 harg3 arg4 harg4 hc0 x0 x1 xo2).1 S1x1x3.size (by sl_kernel_rfl) y

/-- The row after an accumulating point that found it at `xo2`: its store read back. -/
def out0_B_2 (c : Dev nD) (i : grid0.Coords) (arg2 : Memref sig .tc .vmem S1000x1024 .f32) (harg2 : arg2.IsWhole) (arg3 : Memref sig .tc .vmem S1000x4 .f32) (harg3 : arg3.IsWhole) (arg4 : Memref sig .tc .vmem S1x1x3 .f32) (harg4 : arg4.IsWhole) (hc0 : ¬cond0_0 i)
    (x0 : Vec F S1000x1024 .f32) (x1 : Vec F S1000x4 .f32) (xo2 : Vec F S1x1x3 .f32) : Vec F S1x1x3 .f32 :=
  VO0_2.read (Elt F) (VO0_2.writes (Elt F) VO0_2.junk (kernelRun0_B c i arg2 harg2 arg3 harg3 arg4 harg4 hc0 x0 x1 xo2).1)

/-! ## The row point by point -/

/-- What the output row's staging buffer holds after the body at point `n`. -/
def outsAt0 (c : Dev nD) : (n : ℕ) → n < cfg0.N → Vec F S1x1x3 .f32
  | 0, hn => out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (iblk m c 0 ⟨0, hn⟩) (iblk m c 1 ⟨0, hn⟩)
  | n + 1, hn =>
    if h0 : (n + 1) % 50 = 0 then
      out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (iblk m c 0 ⟨n + 1, hn⟩) (iblk m c 1 ⟨n + 1, hn⟩)
    else
      out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn))

/-- At a resetting point. -/
theorem outsAt0_A (c : Dev nD) (t : Fin cfg0.N) (h0 : t.val % 50 = 0) :
    outsAt0 m c t.val t.isLt = out0_A_2 c (grid0.coords t) (ms0_0 t) (hs0_0 t) (ms0_1 t) (hs0_1 t) (ms0_2 t) (hs0_2 t) ((hcond0_0 t).mpr h0) (iblk m c 0 t) (iblk m c 1 t) := by
  obtain ⟨n, hn⟩ := t
  cases n with
  | zero => exact rfl
  | succ n => exact (dif_pos h0).trans rfl

/-- At an accumulating point: over the row of the point before. -/
theorem outsAt0_B (c : Dev nD) (t : Fin cfg0.N) (h0 : ¬t.val % 50 = 0) :
    outsAt0 m c t.val t.isLt = out0_B_2 c (grid0.coords t) (ms0_0 t) (hs0_0 t) (ms0_1 t) (hs0_1 t) (ms0_2 t) (hs0_2 t) (fun h => h0 ((hcond0_0 t).mp h)) (iblk m c 0 t) (iblk m c 1 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` each input's buffer at its block
    and the output row at `outsAt0`; the invariant is the scoped rest and the generator register;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- At an accumulating point the output row's buffer holds what the point before left: the point is
    not the first, and the row was not written back between (write-backs follow points 49 and 99). -/
theorem before0_2_B (c : Dev nD) (t : Fin cfg0.N) (h0 : ¬t.val % 50 = 0) (d) :
    (dats m 0 c).before 2 t d = (outsAt0 m c (t.val - 1) (Nat.lt_of_le_of_lt (Nat.sub_le _ _) t.isLt)) := by
  have hN : t.val < 100 := lt_of_lt_of_eq t.isLt (show cfg0.N = 100 from N_0)
  rw [Dat.before_out_kept _ 2 rfl t (by omega) (Bool.eq_false_iff.mpr fun h => by have := (flush0_2 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

set_option maxHeartbeats 800000 in
/-- The body at any point: the inputs' memrefs hold their blocks; the point's number says which case
    it is in; at an accumulating point the row holds what the point before left; the case's run
    applies, and the invariant passes through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  have hN : t.val < 100 := lt_of_lt_of_eq t.isLt (show cfg0.N = 100 from N_0)
  by_cases h0 : t.val % 50 = 0
  · rw [outsAt0_A m c t h0]
    unfold out0_A_2
    iintro ⟨HΦ, Ho, ⟨%d0, H0⟩, ⟨%d1, H1⟩, ⟨%d2, H2⟩⟩
    iapply ((kernelRun0_A c (grid0.coords t) _ _ _ _ _ _ ((hcond0_0 t).mpr h0) (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_A_2 c _ _ _ _ _ _ _ _ _ _)
  · rw [outsAt0_B m c t h0]
    simp only [before0_2_B m c t h0]
    unfold out0_B_2
    iintro ⟨HΦ, Ho, ⟨%d0, H0⟩, ⟨%d1, H1⟩, ⟨%d2, H2⟩⟩
    iapply ((kernelRun0_B c (grid0.coords t) _ _ _ _ _ _ (fun h => h0 ((hcond0_0 t).mp h)) (iblk m c 0 t) (iblk m c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates without a fault, every array of the
    pipeline ends at the proof data's final contents, and every other unscoped buffer as the 20 lines
    after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end and its seven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Fr

end
-- ==== Proof.KI.Pieces.lean ====
/-
  What each case of the body leaves in the accumulator row, as the body's arithmetic, at any float
  instance. At an accumulating point the one store writes the body's payload of the two input blocks
  and of the row it found. At a resetting point the first store writes the zero row, the body reads it
  back, and the second store writes the payload over the zero row. Both stores cover the whole row, so
  the row read back is the last store's value.
-/
import proofs.«116378_j19963007991831_2_alg».proof.Proof.KI.Frame
import Idealize.ShloMosaic.Lib.Pipeline.Value

noncomputable section

open Idealize.ShloMosaic Idealize.ShloMosaic.TcCoe Idealize.SL.Sem Idealize.ShloMosaic.Tactic
open Idealize.ShloMosaic.Pipeline (Dat)

namespace Cert.KernelIdeal.Val

open Cert.KernelIdeal Cert.KernelIdeal.Gen Cert.KernelIdeal.Fr

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- An accumulating point leaves the payload of the two blocks and of the row it found. -/
theorem out_B (c : Dev nD) (i : grid0.Coords) (a2 : Memref sig .tc .vmem S1000x1024 .f32) (h2 : a2.IsWhole) (a3 : Memref sig .tc .vmem S1000x4 .f32) (h3 : a3.IsWhole) (a4 : Memref sig .tc .vmem S1x1x3 .f32) (h4 : a4.IsWhole) (hc : ¬cond0_0 i)
    (x0 : Vec F S1000x1024 .f32) (x1 : Vec F S1000x4 .f32) (xo : Vec F S1x1x3 .f32) :
    out0_B_2 c i a2 h2 a3 h3 a4 h4 hc x0 x1 xo = k0_pay2 x0 x1 xo := by
  unfold out0_B_2
  rw [View.read_writes_eq_canon _ _ _ (cover0_B_2 c i a2 h2 a3 h3 a4 h4 hc x0 x1 xo)]
  unfold kernelRun0_B
  dsimp only
  rw [View.canon_unit_zero hz3]
  simp only [View.readAt_eq_ld, h2.read_unread, h3.read_unread, h4.read_unread,
    View.ld_unit_zero (S := S1000x1024) hz2, View.ld_unit_zero (S := S1000x4) hz2, View.ld_unit_zero (S := S1x1x3) hz3]

/-- A resetting point leaves the payload of the two blocks and of the zero row. -/
theorem out_A (c : Dev nD) (i : grid0.Coords) (a2 : Memref sig .tc .vmem S1000x1024 .f32) (h2 : a2.IsWhole) (a3 : Memref sig .tc .vmem S1000x4 .f32) (h3 : a3.IsWhole) (a4 : Memref sig .tc .vmem S1x1x3 .f32) (h4 : a4.IsWhole) (hc : cond0_0 i)
    (x0 : Vec F S1000x1024 .f32) (x1 : Vec F S1000x4 .f32) :
    out0_A_2 c i a2 h2 a3 h3 a4 h4 hc x0 x1 = k0_pay2 x0 x1 (k0_pay1 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x1x3) hz3, View.readCov_unit_zero (S := S1x1x3) _ hz3]
  simp only [View.readAt_eq_ld, h2.read_unread, h3.read_unread,
    View.ld_unit_zero (S := S1000x1024) hz2, View.ld_unit_zero (S := S1000x4) hz2, View.ld_unit_zero (S := S1x1x3) hz3]

end Cert.KernelIdeal.Val

end
-- ==== Proof.LibColumn.lean ====
/-
  One column broadcast over many. A `[a, 1]` array broadcast to `[a, b]` holds, at `(p, c)`, the operand's
  entry `(p, 0)`: every column of the result is the operand's one column. (The row form, `[1, b]` to `[a, b]`,
  is the library's `broadcastTo_1b_ab_apply`.) Also the host's `broadcast_in_dim` of a vector `[a]` to the column
  `[a, 1]` along axis 0, read at `(p, u)`: the vector's entry `p`.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` placed by `broadcast_in_dim` along axis 0 of the column shape `[a, 1]` reads, at `(p, u)`,
    the vector's entry `p`. -/
theorem broadcastInDim_a_a1_apply {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

end Cert.LibColumn
-- ==== Proof.KI.Blocks.lean ====
/-
  The windows' blocks as entries of the whole arrays, at any float instance.
  The grid is 2 x 50 and the two input windows' block index along the rows is 50 p + i, which is the
  point's number t in row-major order: block t of the score matrix is rows 1000 t … 1000 t + 999, and
  the same for the packed [100000, 4] array. The output window's block index is p = t / 50.
  The packed array is what the host lines before the region lay side by side: column 0 the weights z,
  column 1 the weights r, column 2 the squared box distance, column 3 the nearest box's class label
  converted to a float. The label and the distance are table lookups by the (wrapped) nearest-box index;
  they are named here and never opened.
-/
import proofs.«116378_j19963007991831_2_alg».proof.Proof.KI.Frame
import proofs.«116378_j19963007991831_2_alg».proof.Proof.LibColumn
import Idealize.ShloMosaic.Lib.Pipeline.Value
import Idealize.ShloMosaic.Lib.StableHlo.Run
import Idealize.ShloMosaic.Lib.ValueIdx

noncomputable section

open Idealize.ShloMosaic Idealize.ShloMosaic.TcCoe Idealize.SL.Sem Idealize.ShloMosaic.Tactic
open Idealize.ShloMosaic.Pipeline (Dat)
open Idealize.ShloMosaic.ValueIdx

namespace Cert.KernelIdeal.Val

open Cert.KernelIdeal Cert.KernelIdeal.Gen Cert.KernelIdeal.Fr

variable {F : FTy → Type} [FloatOps F]

/-! ## The lookups the host lines perform -/

/-- The nearest-box index with a negative value wrapped by 128 (python's indexing from the end). -/
def wrapIdx (x4 : (⟨S100000, .i32⟩ : BufTy).Contents (Elt F)) : (⟨S100000, .i32⟩ : BufTy).Contents (Elt F) :=
  select (cmpi .slt x4 (broadcastInDim S100000 ![] bcast_S_S100000 (constantI S_ 32 0#32)))
    (addi x4 (broadcastInDim S100000 ![] bcast_S_S100000 (constantI S_ 32 128#32))) x4

/-- Each row's label: the class of its nearest box. -/
def labels (x4 : (⟨S100000, .i32⟩ : BufTy).Contents (Elt F)) (x5 : (⟨S128, .i32⟩ : BufTy).Contents (Elt F)) :
    (⟨S100000, .i32⟩ : BufTy).Contents (Elt F) :=
  Host.gather gather_S128_S100000x1_S100000_n_0_n_n_0_1_1 x5 (broadcastInDim S100000x1 ![0] bcast_S100000_S100000x1_0 (wrapIdx x4))

/-- Each row's squared distance to its nearest box: the sum over the four box coordinates of the squared difference. -/
def dists (x1 : (⟨S100000x4, .f32⟩ : BufTy).Contents (Elt F)) (x4 : (⟨S100000, .i32⟩ : BufTy).Contents (Elt F))
    (x6 : (⟨S128x4, .f32⟩ : BufTy).Contents (Elt F)) : (⟨S100000, .f32⟩ : BufTy).Contents (Elt F) :=
  Host.reduceAdd
    (mulf (subf x1 (Host.gather gather_S128x4_S100000x1_S100000x4_1_0_n_n_0_1_14 x6 (broadcastInDim S100000x1 ![0] bcast_S100000_S100000x1_0 (wrapIdx x4))))
          (subf x1 (Host.gather gather_S128x4_S100000x1_S100000x4_1_0_n_n_0_1_14 x6 (broadcastInDim S100000x1 ![0] bcast_S100000_S100000x1_0 (wrapIdx x4)))))
    (constant S_ .f32 0x00000000#32) reducesTo_S100000x4_S100000_d1 h_S_

/-- A vector laid out as one column. -/
abbrev col {φ : EltTy} (x : (⟨S100000, φ⟩ : BufTy).Contents (Elt F)) : (⟨S100000x1, φ⟩ : BufTy).Contents (Elt F) :=
  broadcastInDim S100000x1 ![0] bcast_S100000_S100000x1_0 x

variable (m : (ℓ : Loc nD τ sig) → Buf (Elt F) ℓ)

/-! ## The packed array -/

/-- The packed array as the region finds it: the four columns side by side. -/
theorem V_packed (c : Dev nD) :
    (V m c main_v22 : S100000x4.Idx → Elt F .f32)
      = concatenate S100000x4 1
          [⟨S100000x1, col (m ((c : Thread nD τ).loc main_arg2))⟩, ⟨S100000x1, col (m ((c : Thread nD τ).loc main_arg3))⟩,
           ⟨S100000x1, col (dists (m ((c : Thread nD τ).loc main_arg1)) (m ((c : Thread nD τ).loc main_arg4)) (m ((c : Thread nD τ).loc main_arg6)))⟩,
           ⟨S100000x1, col (sitofp .f32 (labels (m ((c : Thread nD τ).loc main_arg4)) (m ((c : Thread nD τ).loc main_arg5))))⟩]
          concatenates_S100000x1_S100000x1_S100000x1_S100000x1_S100000x4_d1 := by
  show StableHlo.after hostOps0 (fun b => m (c, b)) (Proc.devRef .tc main_v22) = _
  after_results
  rfl

/-- Four columns side by side, read at (n, k): column k at row n. -/
theorem concat4_apply {α : Type} (p0 p1 p2 p3 : S100000x1.Idx → α)
    (h : Shape.Concatenates [S100000x1, S100000x1, S100000x1, S100000x1] S100000x4 1) (n : Fin 100000) :
    concatenate S100000x4 1 [⟨S100000x1, p0⟩, ⟨S100000x1, p1⟩, ⟨S100000x1, p2⟩, ⟨S100000x1, p3⟩] h (ix2 n (0 : Fin 4)) = p0 (ix2 n (0 : Fin 1))
    ∧ concatenate S100000x4 1 [⟨S100000x1, p0⟩, ⟨S100000x1, p1⟩, ⟨S100000x1, p2⟩, ⟨S100000x1, p3⟩] h (ix2 n (1 : Fin 4)) = p1 (ix2 n (0 : Fin 1))
    ∧ concatenate S100000x4 1 [⟨S100000x1, p0⟩, ⟨S100000x1, p1⟩, ⟨S100000x1, p2⟩, ⟨S100000x1, p3⟩] h (ix2 n (2 : Fin 4)) = p2 (ix2 n (0 : Fin 1))
    ∧ concatenate S100000x4 1 [⟨S100000x1, p0⟩, ⟨S100000x1, p1⟩, ⟨S100000x1, p2⟩, ⟨S100000x1, p3⟩] h (ix2 n (3 : Fin 4)) = p3 (ix2 n (0 : Fin 1)) := by
  have hoff : ∀ (k : Fin 4) (b : Fin S100000x1.rank), b.cast (rfl : S100000x1.rank = S100000x4.rank) ≠ (1 : Fin 2) →
      ((ix2 n (0 : Fin 1) : S100000x1.Idx) b).val = ((ix2 n k : S100000x4.Idx) (b.cast rfl)).val := fun k b hb => by
    match b with
    | ⟨0, _⟩ => rfl
    | ⟨1, _⟩ => exact absurd rfl hb
  refine ⟨?_, ?_, ?_, ?_⟩
  · exact concatenate_apply_piece (t := S100000x4) (1 : Fin 2) ([⟨S100000x1, p0⟩, ⟨S100000x1, p1⟩, ⟨S100000x1, p2⟩, ⟨S100000x1, p3⟩] : List ((s : Shape) × (s.Idx → α))) h (ix2 n (0 : Fin 4)) 0 (by simp) S100000x1 p0 rfl rfl 0 rfl (ix2 n (0 : Fin 1)) (hoff 0) rfl
  · exact concatenate_apply_piece (t := S100000x4) (1 : Fin 2) ([⟨S100000x1, p0⟩, ⟨S100000x1, p1⟩, ⟨S100000x1, p2⟩, ⟨S100000x1, p3⟩] : List ((s : Shape) × (s.Idx → α))) h (ix2 n (1 : Fin 4)) 1 (by simp) S100000x1 p1 rfl rfl 1 rfl (ix2 n (0 : Fin 1)) (hoff 1) rfl
  · exact concatenate_apply_piece (t := S100000x4) (1 : Fin 2) ([⟨S100000x1, p0⟩, ⟨S100000x1, p1⟩, ⟨S100000x1, p2⟩, ⟨S100000x1, p3⟩] : List ((s : Shape) × (s.Idx → α))) h (ix2 n (2 : Fin 4)) 2 (by simp) S100000x1 p2 rfl rfl 2 rfl (ix2 n (0 : Fin 1)) (hoff 2) rfl
  · exact concatenate_apply_piece (t := S100000x4) (1 : Fin 2) ([⟨S100000x1, p0⟩, ⟨S100000x1, p1⟩, ⟨S100000x1, p2⟩, ⟨S100000x1, p3⟩] : List ((s : Shape) × (s.Idx → α))) h (ix2 n (3 : Fin 4)) 3 (by simp) S100000x1 p3 rfl rfl 3 rfl (ix2 n (0 : Fin 1)) (hoff 3) rfl

/-- The packed array's four columns at row n. -/
theorem packed_apply (c : Dev nD) (n : Fin 100000) :
    (V m c main_v22 : S100000x4.Idx → Elt F .f32) (ix2 n (0 : Fin 4)) = m ((c : Thread nD τ).loc main_arg2) (ix1 n)
    ∧ (V m c main_v22 : S100000x4.Idx → Elt F .f32) (ix2 n (1 : Fin 4)) = m ((c : Thread nD τ).loc main_arg3) (ix1 n)
    ∧ (V m c main_v22 : S100000x4.Idx → Elt F .f32) (ix2 n (2 : Fin 4))
        = dists (m ((c : Thread nD τ).loc main_arg1)) (m ((c : Thread nD τ).loc main_arg4)) (m ((c : Thread nD τ).loc main_arg6)) (ix1 n)
    ∧ (V m c main_v22 : S100000x4.Idx → Elt F .f32) (ix2 n (3 : Fin 4))
        = FloatOps.sitofp .f32 (labels (m ((c : Thread nD τ).loc main_arg4)) (m ((c : Thread nD τ).loc main_arg5)) (ix1 n)) := by
  rw [V_packed m c]
  obtain ⟨e0, e1, e2, e3⟩ := concat4_apply
    (col (m ((c : Thread nD τ).loc main_arg2))) (col (m ((c : Thread nD τ).loc main_arg3)))
    (col (dists (m ((c : Thread nD τ).loc main_arg1)) (m ((c : Thread nD τ).loc main_arg4)) (m ((c : Thread nD τ).loc main_arg6))))
    (col (sitofp .f32 (labels (m ((c : Thread nD τ).loc main_arg4)) (m ((c : Thread nD τ).loc main_arg5)))))
    concatenates_S100000x1_S100000x1_S100000x1_S100000x1_S100000x4_d1 n
  refine ⟨e0.trans ?_, e1.trans ?_, e2.trans ?_, e3.trans ?_⟩
  · exact Cert.LibColumn.broadcastInDim_a_a1_apply _ bcast_S100000_S100000x1_0 n 0
  · exact Cert.LibColumn.broadcastInDim_a_a1_apply _ bcast_S100000_S100000x1_0 n 0
  · exact Cert.LibColumn.broadcastInDim_a_a1_apply _ bcast_S100000_S100000x1_0 n 0
  · exact (Cert.LibColumn.broadcastInDim_a_a1_apply _ bcast_S100000_S100000x1_0 n 0).trans rfl

/-! ## The blocks -/

/-- The windows' block indices over the 100 grid points. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 3) = t.val / 50 ∧ win0_2.index t (1 : Fin 3) = 0 ∧ win0_2.index t (2 : Fin 3) = 0 :=
  (by decide +kernel : ∀ t : Fin grid0.N,
    win0_0.index t (0 : Fin 2) = t.val ∧ win0_0.index t (1 : Fin 2) = 0
    ∧ win0_1.index t (0 : Fin 2) = t.val ∧ win0_1.index t (1 : Fin 2) = 0
    ∧ win0_2.index t (0 : Fin 3) = t.val / 50 ∧ win0_2.index t (1 : Fin 3) = 0 ∧ win0_2.index t (2 : Fin 3) = 0)

/-- Row q of block t is row 1000 t + q of the array. -/
def rowAt (t : Fin cfg0.N) (q : Fin 1000) : Fin 100000 :=
  ⟨1000 * t.val + q.val, by have := lt_of_lt_of_eq t.isLt (show cfg0.N = 100 from N_0); have := q.isLt; omega⟩

/-- The score block at point t, entry (q, j): the launched score matrix at (1000 t + q, j). -/
theorem iblk0_apply (c : Dev nD) (t : Fin cfg0.N) (q : Fin 1000) (j : Fin 1024) :
    (iblk m c 0 t : Vec F S1000x1024 .f32) (ix2 q j) = m ((c : Thread nD τ).loc main_arg0) (ix2 (rowAt t q) j) := by
  have hi := idx_facts t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 1000 + 1 * q.val = 1000 * t.val + q.val; rw [hi.1]; omega
  | ⟨1, _⟩ => show win0_0.index t 1 * 1024 + 1 * j.val = j.val; rw [hi.2.1]; omega

/-- The packed block at point t, entry (q, k): the packed array at (1000 t + q, k). -/
theorem iblk1_apply (c : Dev nD) (t : Fin cfg0.N) (q : Fin 1000) (k : Fin 4) :
    (iblk m c 1 t : Vec F S1000x4 .f32) (ix2 q k) = (V m c main_v22 : S100000x4.Idx → Elt F .f32) (ix2 (rowAt t q) k) := by
  have hi := idx_facts t
  unfold iblk
  rw [View.read_apply]
  show V m c main_v22 _ = _
  refine congrArg (V m c main_v22) (funext fun a => Fin.ext ?_)
  match a with
  | ⟨0, _⟩ => show win0_1.index t 0 * 1000 + 1 * q.val = 1000 * t.val + q.val; rw [hi.2.2.1]; omega
  | ⟨1, _⟩ => show win0_1.index t 1 * 4 + 1 * k.val = k.val; rw [hi.2.2.2.1]; omega

end Cert.KernelIdeal.Val

end
-- ==== Proof.Spec.lean ====
/-
  The loss as one function of the arrays, over the extended reals, with the index laws that let two
  differently tiled computations of it be compared.

  For each of the 100000 rows n: the row's 1024 class scores with the entry at the row's label
  replaced by zero, the largest of them (from minus infinity), and its logarithm L n. With per-row
  weights z and r and the per-row squared box distance d, the three totals are
      A = sum over n of z n * L n,   B = sum over n of r n * L n,   D = sum over n of z n * d n,
  and the loss is (-A + exp (-D)) + -B.

  The label and the distance are themselves computed from the other arguments by table lookups that
  both programs perform in the same way; they enter here as arrays.
-/
import Idealize.ShloMosaic.PureOps.Ideal
import Idealize.ShloMosaic.PureOps.Ideal.Laws
import Idealize.ShloMosaic.Lib.ValueIdx
import Idealize.ShloMosaic.Lib.IdealHost

noncomputable section

open scoped BigOperators

namespace Cert.BoxLoss

open Idealize.ShloMosaic Idealize.ShloMosaic.ValueIdx

/-- The shapes the specification speaks of: a vector of 100000 rows, the score matrix. -/
abbrev SN : Shape := ⟨1, ![100000]⟩
abbrev SNC : Shape := ⟨2, ![100000, 1024]⟩

/-! ## One row -/

/-- A row's score at class `j` with the labelled class zeroed: the label is compared with the class
    number as 32-bit words. -/
def masked (lab : BitVec 32) (j : Fin 1024) (x : EReal) : EReal :=
  Scalar.select (IntOp.cmpi .eq (BitVec.ofNat 32 j.val) lab) (0 : EReal) x

/-- The logarithm of the largest masked score of a row (the maximum taken from minus infinity). -/
def logMax (lab : BitVec 32) (row : Fin 1024 → EReal) : EReal :=
  Ideal.log ((Finset.univ : Finset (Fin 1024)).fold max (Ideal.ofBits .f32 0xFF800000#32) (fun j => masked lab j (row j)))

/-! ## The three per-row terms and the loss -/

/-- Row `n`'s term of each of the three totals. -/
def termA (cs : SNC.Idx → EReal) (z : SN.Idx → EReal) (lab : SN.Idx → BitVec 32) (n : Fin 100000) : EReal :=
  z (ix1 n) * logMax (lab (ix1 n)) (fun j => cs (ix2 n j))
def termD (z dist : SN.Idx → EReal) (n : Fin 100000) : EReal :=
  z (ix1 n) * dist (ix1 n)

/-- The loss from the three totals. -/
def combine (a b d : EReal) : EReal := (-a + Ideal.exp (-d)) + -b

/-- The loss as a function of the scores, the two weight vectors, the labels and the distances. -/
def loss (cs : SNC.Idx → EReal) (z r : SN.Idx → EReal) (lab : SN.Idx → BitVec 32) (dist : SN.Idx → EReal) : EReal :=
  combine (∑ n : Fin 100000, termA cs z lab n) (∑ n : Fin 100000, termA cs r lab n) (∑ n : Fin 100000, termD z dist n)

/-! ## Index laws -/

/-- A rank-1 index set is its one coordinate range, -/
def idxEquiv1 {n : Nat} : (⟨1, ![n]⟩ : Shape).Idx ≃ Fin n where
  toFun i := i 0
  invFun a := ix1 a
  left_inv i := (eq_ix1 i).symm
  right_inv _ := rfl
/-- so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Row number from (core, step, row in block): 50 steps of 1000 rows per core. -/
def rowOf (p : Fin 2) (i : Fin 50) (q : Fin 1000) : Fin 100000 :=
  ⟨(p.val * 50 + i.val) * 1000 + q.val, by have := p.isLt; have := i.isLt; have := q.isLt; omega⟩

/-- Summing block by block — over the two cores, each core's 50 steps, each step's 1000 rows — is
    summing over all rows: addition on the extended reals is commutative and associative, and
    (core, step, row in block) ↦ row number is a bijection. -/
theorem sum_blocks (u : Fin 100000 → EReal) :
    ∑ p : Fin 2, ∑ i : Fin 50, ∑ q : Fin 1000, u (rowOf p i q) = ∑ n : Fin 100000, u n := by
  let e : (Fin 2 × Fin 50) × Fin 1000 ≃ Fin 100000 :=
    { toFun := fun x => rowOf x.1.1 x.1.2 x.2
      invFun := fun n => ((⟨n.val / 50000, by have := n.isLt; omega⟩, ⟨n.val / 1000 % 50, by omega⟩), ⟨n.val % 1000, by omega⟩)
      left_inv := by
        rintro ⟨⟨p, i⟩, q⟩
        have := p.isLt; have := i.isLt; have := q.isLt
        simp only [rowOf, Prod.mk.injEq, Fin.ext_iff]
        refine ⟨⟨?_, ?_⟩, ?_⟩ <;> omega
      right_inv := by
        intro n
        have := n.isLt
        simp only [rowOf, Fin.ext_iff]
        omega }
  rw [← Equiv.sum_comp e u, Fintype.sum_prod_type, Fintype.sum_prod_type]
  rfl

end Cert.BoxLoss

end
-- ==== Proof.KI.Payload.lean ====
/-
  The arithmetic of one block of 1000 rows, read entry by entry over the extended reals.

  The kernel body's arithmetic is one term (`k0_pay2` of the generated skeleton): from the block's 1000 × 1024 class
  scores `v3`, its 1000 × 4 per-row columns `v4` (the weights z and r, the squared distance d, and the label written as a
  float) and the 1 × 1 × 3 row `v29` it found, it builds the row it stores. Here that row is read at each of its three
  entries:

      entry 0 = v29's entry 0 + Σ_q z q · L q,
      entry 1 = v29's entry 1 + Σ_q r q · L q,
      entry 2 = v29's entry 2 + Σ_q z q · d q,

  where q runs over the block's 1000 rows and L q is the logarithm of the largest of row q's 1024 scores after the score
  at the row's label has been replaced by zero (`Cert.BoxLoss.logMax`; the label is column 3 converted to a 32-bit
  integer). Every step on the way is of one of three kinds: a re-indexing read at an index (a column taken as a slice, a
  change of shape that keeps the row-major position, three 1 × 1 pieces laid side by side), an entrywise operation
  (product, logarithm, select on "lane number = label"), or one of two reductions along one axis (the sum of a column
  over its rows, from zero; the maximum of a row over its lanes, from minus infinity). Each is stated as a small lemma
  over arbitrary vectors of the literal shapes, and the three entries are chains of those lemmas.

  Also here: the row the body stores at a core's first step is zero (`pay1_apply`); and converting a 32-bit integer to a
  float and back returns the integer (`fptosi_sitofp`), which is what lets the float label column stand for the integer
  labels.
-/
import proofs.«116378_j19963007991831_2_alg».proof.Proof.Spec
import proofs.«116378_j19963007991831_2_alg».proof.Proof.Gen.KernelIdeal.Skeleton
import Idealize.ShloMosaic.Lib.ValueIdx
import Idealize.ShloMosaic.Lib.Pipeline.Value
import Idealize.ShloMosaic.Lib.IdealHost
import Idealize.ShloMosaic.PureOps.Ideal
import Idealize.ShloMosaic.PureOps.Ideal.Laws

noncomputable section

open scoped BigOperators

namespace Cert.KernelIdeal.Pay

open Cert.KernelIdeal Cert.KernelIdeal.Gen Cert.BoxLoss Idealize.ShloMosaic Idealize.ShloMosaic.ValueIdx

/-! ## The integer label survives the trip through the float column -/

/-- Converting a 32-bit integer to a float and back gives the integer: the conversion to a float is the integer exactly,
    an integer is its own floor and ceiling, and it already lies in the 32-bit range, so the clamp leaves it alone. -/
theorem fptosi_sitofp (b : BitVec 32) :
    FloatOps.fptosi (F := Ideal) (φ := .f32) 32 (FloatOps.sitofp (F := Ideal) .f32 b) = b := by
  show Ideal.fptosi 32 (((b.toInt : ℝ) : EReal)) = b
  unfold Ideal.fptosi
  rw [Ideal.toIntClamped_coe]
  have hfl : (if (0 : ℝ) ≤ (b.toInt : ℝ) then ⌊(b.toInt : ℝ)⌋ else ⌈(b.toInt : ℝ)⌉) = b.toInt := by
    split <;> simp
  rw [hfl]
  have hlo : -(2 ^ (32 - 1) : Nat) ≤ b.toInt := by
    have := BitVec.le_toInt b; simpa using this
  have hhi : b.toInt ≤ ((2 ^ (32 - 1) : Nat) : Int) - 1 := by
    have := BitVec.toInt_lt (x := b); simp at this ⊢; omega
  rw [min_eq_right hhi, max_eq_right hlo]
  exact BitVec.ofInt_toInt

/-! ## Re-indexings at an index -/

section Layout
variable {α : Type}

/-- A vector of 1000 viewed as a 1000 × 1 column: row `q` of the column is entry `q` (same row-major position). -/
theorem cast_col (x : S1000.Idx → α) (h : S1000.ShapeCasts S1000x1) (q : Fin 1000) :
    shapeCast S1000x1 x h (ix2 q (0 : Fin 1)) = x (ix1 q) :=
  shapeCast_apply x h (ix2 q (0 : Fin 1)) (ix1 q) (by
    rw [Shape.rowMajor_val_one, Shape.rowMajor_val_two]; show q.val = q.val * 1 + 0; omega)

/-- A one-entry vector viewed as a 1 × 1 matrix. -/
theorem cast_one (x : S1.Idx → α) (h : S1.ShapeCasts S1x1) :
    shapeCast S1x1 x h (ix2 (0 : Fin 1) (0 : Fin 1)) = x (ix1 (0 : Fin 1)) :=
  shapeCast_apply x h (ix2 (0 : Fin 1) (0 : Fin 1)) (ix1 (0 : Fin 1)) (by
    rw [Shape.rowMajor_val_one, Shape.rowMajor_val_two]; rfl)

/-- A 1 × 3 row viewed as 1 × 1 × 3: entry `k` stays entry `k`. -/
theorem cast_row (x : S1x3.Idx → α) (h : S1x3.ShapeCasts S1x1x3) (k : Fin 3) :
    shapeCast S1x1x3 x h (ix3 (0 : Fin 1) (0 : Fin 1) k) = x (ix2 (0 : Fin 1) k) :=
  shapeCast_apply x h (ix3 (0 : Fin 1) (0 : Fin 1) k) (ix2 (0 : Fin 1) k) (by
    rw [Shape.rowMajor_val_two, Shape.rowMajor_val_three]; show 0 * 3 + k.val = (0 * 1 + 0) * 3 + k.val; omega)

/-- Column `c` of a 1000 × 4 block, taken as a 1000 × 1 slice: row `q` of the slice is entry `(q, c)`. -/
theorem slice_col (x : S1000x4.Idx → α) (c : Fin 4) (h : S1000x4.Slices ![0, c.val] S1000x1) (q : Fin 1000) :
    extractStridedSlice S1000x1 ![0, c.val] x h (ix2 q (0 : Fin 1)) = x (ix2 q c) :=
  extractStridedSlice_apply _ x h (ix2 q (0 : Fin 1)) (ix2 q c) (fun a => match a with
    | ⟨0, _⟩ => by show q.val = 0 + q.val; omega
    | ⟨1, _⟩ => by show c.val = c.val + 0; omega)

/-- Three 1 × 1 pieces laid side by side: column 0 of the row is the first piece, -/
theorem cat3_apply0 (x0 x1 x2 : S1x1.Idx → α) (h : Shape.Concatenates [S1x1, S1x1, S1x1] S1x3 1) :
    concatenate S1x3 1 [⟨S1x1, x0⟩, ⟨S1x1, x1⟩, ⟨S1x1, x2⟩] h (ix2 (0 : Fin 1) (0 : Fin 3)) = x0 (ix2 (0 : Fin 1) (0 : Fin 1)) :=
  concatenate_apply_piece (t := S1x3) 1 [⟨S1x1, x0⟩, ⟨S1x1, x1⟩, ⟨S1x1, x2⟩] h (ix2 (0 : Fin 1) (0 : Fin 3)) 0
    (by show (0 : Nat) < 3; omega) S1x1 x0 rfl rfl 0 rfl (ix2 (0 : Fin 1) (0 : Fin 1))
    (fun b hb => match b, hb with | ⟨0, _⟩, _ => rfl | ⟨1, _⟩, hb => absurd rfl hb) rfl

/-- column 1 the second, -/
theorem cat3_apply1 (x0 x1 x2 : S1x1.Idx → α) (h : Shape.Concatenates [S1x1, S1x1, S1x1] S1x3 1) :
    concatenate S1x3 1 [⟨S1x1, x0⟩, ⟨S1x1, x1⟩, ⟨S1x1, x2⟩] h (ix2 (0 : Fin 1) (1 : Fin 3)) = x1 (ix2 (0 : Fin 1) (0 : Fin 1)) :=
  concatenate_apply_piece (t := S1x3) 1 [⟨S1x1, x0⟩, ⟨S1x1, x1⟩, ⟨S1x1, x2⟩] h (ix2 (0 : Fin 1) (1 : Fin 3)) 1
    (by show (1 : Nat) < 3; omega) S1x1 x1 rfl rfl 1 rfl (ix2 (0 : Fin 1) (0 : Fin 1))
    (fun b hb => match b, hb with | ⟨0, _⟩, _ => rfl | ⟨1, _⟩, hb => absurd rfl hb) rfl

/-- and column 2 the third. -/
theorem cat3_apply2 (x0 x1 x2 : S1x1.Idx → α) (h : Shape.Concatenates [S1x1, S1x1, S1x1] S1x3 1) :
    concatenate S1x3 1 [⟨S1x1, x0⟩, ⟨S1x1, x1⟩, ⟨S1x1, x2⟩] h (ix2 (0 : Fin 1) (2 : Fin 3)) = x2 (ix2 (0 : Fin 1) (0 : Fin 1)) :=
  concatenate_apply_piece (t := S1x3) 1 [⟨S1x1, x0⟩, ⟨S1x1, x1⟩, ⟨S1x1, x2⟩] h (ix2 (0 : Fin 1) (2 : Fin 3)) 2
    (by show (2 : Nat) < 3; omega) S1x1 x2 rfl rfl 2 rfl (ix2 (0 : Fin 1) (0 : Fin 1))
    (fun b hb => match b, hb with | ⟨0, _⟩, _ => rfl | ⟨1, _⟩, hb => absurd rfl hb) rfl

end Layout

/-! ## The two reductions -/

/-- The sum of a 1000 × 1 column over its rows, from the accumulator zero: the sum of its 1000 entries. -/
theorem colSum (v : FVec Ideal S1000x1 .f32) (h : S1000x1.Reduces [0] S1) (hφ : FKind.Formats .f32)
    (hacc : (0x00000000#32 : BitVec 32) = FKind.add.neutral .f32 hφ) :
    multiReduction .add [0] S1 v 0x00000000#32 h hφ hacc (ix1 (0 : Fin 1)) = ∑ q : Fin 1000, v (ix2 q (0 : Fin 1)) :=
  (Ideal.multiReduction_add_single v _ h hφ hacc (ix1 (0 : Fin 1))).trans
    (Finset.sum_congr rfl fun q _ => congrArg v (funext fun c => match c with
      | ⟨0, _⟩ => Fin.ext rfl
      | ⟨1, _⟩ => Fin.ext rfl))

/-- The maximum of row `q` of a 1000 × 1024 block, from the accumulator minus infinity: the fold of `max` over the
    row's 1024 entries. -/
theorem rowMax (v : FVec Ideal S1000x1024 .f32) (h : S1000x1024.Reduces [1] S1000) (hφ : FKind.Formats .f32)
    (hacc : (0xFF800000#32 : BitVec 32) = FKind.maximumf.neutral .f32 hφ) (q : Fin 1000) :
    multiReduction .maximumf [1] S1000 v 0xFF800000#32 h hφ hacc (ix1 q)
      = (Finset.univ : Finset (Fin 1024)).fold max (Ideal.ofBits .f32 0xFF800000#32) (fun j : Fin 1024 => v (ix2 q j)) :=
  (Ideal.multiReduction_maximumf_single v _ h hφ hacc (ix1 q)).trans
    (congrArg (fun f => (Finset.univ : Finset (Fin 1024)).fold max (Ideal.ofBits .f32 0xFF800000#32) f)
      (funext fun j => congrArg v (funext fun c => match c with
        | ⟨0, _⟩ => Fin.ext rfl
        | ⟨1, _⟩ => Fin.ext rfl)))

/-! ## One row: the masked scores and the logarithm of their maximum -/

/-- The score at `(q, j)` after the select: the lane number `j` is compared with row `q`'s label (the label column
    broadcast along the lanes), and where they agree the score is replaced by zero. -/
theorem masked_apply (v3 : FVec Ideal S1000x1024 .f32) (lab : IVec S1000x1 32)
    (hI : S1000x1024.Iotas .tc 32 [1]) (hB : S1000x1.Broadcasts S1000x1024) (q : Fin 1000) (j : Fin 1024) :
    select (cmpi .eq (iota .tc S1000x1024 32 [1] hI) (broadcastTo S1000x1024 lab hB))
        (broadcast S1000x1024 (Scalar.ofBits (F := Ideal) .f32 0x00000000#32)) v3 (ix2 q j)
      = masked (lab (ix2 q (0 : Fin 1))) j (v3 (ix2 q j)) := by
  show Scalar.select (IntOp.cmpi .eq (iota .tc S1000x1024 32 [1] hI (ix2 q j)) (broadcastTo S1000x1024 lab hB (ix2 q j)))
      (Ideal.ofBits .f32 0x00000000#32) (v3 (ix2 q j)) = _
  rw [iota_single_apply, broadcastTo_apply lab hB (ix2 q j) (ix2 q (0 : Fin 1)) (fun a => match a with
      | ⟨0, _⟩ => rfl
      | ⟨1, _⟩ => rfl), Ideal.ofBits_zero_f32]
  rfl

/-- A logarithm taken entry by entry, read at an index. -/
theorem log_apply {s : Shape} {φ : FTy} (a : FVec Ideal s φ) (i : s.Idx) : log a i = Ideal.log (a i) := rfl

/-- The logarithm column at row `q`: the logarithm of the largest masked score of the row, the label read from column 3
    of the block's four columns and converted to an integer. -/
theorem logCol_apply (v3 : FVec Ideal S1000x1024 .f32) (v5 : FVec Ideal S1000x4 .f32)
    (hS : S1000x4.Slices ![0, 3] S1000x1) (hI : S1000x1024.Iotas .tc 32 [1]) (hB : S1000x1.Broadcasts S1000x1024)
    (hR : S1000x1024.Reduces [1] S1000) (hφ : FKind.Formats .f32)
    (hacc : (0xFF800000#32 : BitVec 32) = FKind.maximumf.neutral .f32 hφ) (hC : S1000.ShapeCasts S1000x1) (q : Fin 1000) :
    log (shapeCast S1000x1 (multiReduction .maximumf [1] S1000
        (select (cmpi .eq (iota .tc S1000x1024 32 [1] hI)
            (broadcastTo S1000x1024 (fptosi 32 (extractStridedSlice S1000x1 ![0, 3] v5 hS)) hB))
          (broadcast S1000x1024 (Scalar.ofBits (F := Ideal) .f32 0x00000000#32)) v3)
        0xFF800000#32 hR hφ hacc) hC) (ix2 q (0 : Fin 1))
      = logMax (FloatOps.fptosi (F := Ideal) (φ := .f32) 32 (v5 (ix2 q (3 : Fin 4)))) (fun j : Fin 1024 => v3 (ix2 q j)) := by
  unfold logMax
  refine (log_apply _ _).trans (congrArg Ideal.log ?_)
  refine (cast_col _ hC q).trans ?_
  refine (rowMax _ hR hφ hacc q).trans ?_
  refine congrArg (fun f => (Finset.univ : Finset (Fin 1024)).fold max (Ideal.ofBits .f32 0xFF800000#32) f) (funext fun j => ?_)
  refine (masked_apply v3 _ hI hB q j).trans ?_
  exact congrArg (fun l => masked (FloatOps.fptosi (F := Ideal) (φ := .f32) 32 l) j (v3 (ix2 q j))) (slice_col v5 3 hS q)

/-! ## The two rows the body stores -/

variable [Cert.KernelIdeal.Facts]

/-- The zero row. -/
theorem pay1_apply (i : S1x1x3.Idx) : k0_pay1 (F := Ideal) i = 0 := by
  unfold k0_pay1
  show Ideal.ofBits .f32 0x00000000#32 = 0
  exact Ideal.ofBits_zero_f32

/-- Entry 0 of the row the body stores: what it found plus the block's sum of `z · log`. -/
theorem pay2_apply0 (v3 : Vec Ideal S1000x1024 .f32) (v4 : Vec Ideal S1000x4 .f32) (v29 : Vec Ideal S1x1x3 .f32) :
    k0_pay2 (F := Ideal) v3 v4 v29 (ix3 (0 : Fin 1) (0 : Fin 1) (0 : Fin 3))
      = v29 (ix3 (0 : Fin 1) (0 : Fin 1) (0 : Fin 3)) + ∑ q : Fin 1000, v4 (ix2 q (0 : Fin 4))
          * logMax (FloatOps.fptosi (F := Ideal) (φ := .f32) 32 (v4 (ix2 q (3 : Fin 4)))) (fun j : Fin 1024 => v3 (ix2 q j)) := by
  unfold k0_pay2
  refine (addf_apply _ _ _).trans ?_
  refine congrArg₂ (· + ·) (congrFun (shapeCast_self v29 _) _) ?_
  refine (cast_row _ _ 0).trans ?_
  refine (cat3_apply0 _ _ _ _).trans ?_
  refine (cast_one _ _).trans ?_
  refine (colSum _ _ _ _).trans ?_
  refine Finset.sum_congr rfl fun q _ => ?_
  refine (mulf_apply _ _ _).trans ?_
  refine congrArg₂ (· * ·) ((slice_col _ 0 _ q).trans ?_) ((logCol_apply v3 _ _ _ _ _ _ _ _ q).trans ?_)
  · exact congrFun (shapeCast_self v4 _) _
  · rw [shapeCast_self]

/-- Entry 1: what it found plus the block's sum of `r · log`. -/
theorem pay2_apply1 (v3 : Vec Ideal S1000x1024 .f32) (v4 : Vec Ideal S1000x4 .f32) (v29 : Vec Ideal S1x1x3 .f32) :
    k0_pay2 (F := Ideal) v3 v4 v29 (ix3 (0 : Fin 1) (0 : Fin 1) (1 : Fin 3))
      = v29 (ix3 (0 : Fin 1) (0 : Fin 1) (1 : Fin 3)) + ∑ q : Fin 1000, v4 (ix2 q (1 : Fin 4))
          * logMax (FloatOps.fptosi (F := Ideal) (φ := .f32) 32 (v4 (ix2 q (3 : Fin 4)))) (fun j : Fin 1024 => v3 (ix2 q j)) := by
  unfold k0_pay2
  refine (addf_apply _ _ _).trans ?_
  refine congrArg₂ (· + ·) (congrFun (shapeCast_self v29 _) _) ?_
  refine (cast_row _ _ 1).trans ?_
  refine (cat3_apply1 _ _ _ _).trans ?_
  refine (cast_one _ _).trans ?_
  refine (colSum _ _ _ _).trans ?_
  refine Finset.sum_congr rfl fun q _ => ?_
  refine (mulf_apply _ _ _).trans ?_
  refine congrArg₂ (· * ·) ((slice_col _ 1 _ q).trans ?_) ((logCol_apply v3 _ _ _ _ _ _ _ _ q).trans ?_)
  · exact congrFun (shapeCast_self v4 _) _
  · rw [shapeCast_self]

/-- Entry 2: what it found plus the block's sum of `z · dist`. -/
theorem pay2_apply2 (v3 : Vec Ideal S1000x1024 .f32) (v4 : Vec Ideal S1000x4 .f32) (v29 : Vec Ideal S1x1x3 .f32) :
    k0_pay2 (F := Ideal) v3 v4 v29 (ix3 (0 : Fin 1) (0 : Fin 1) (2 : Fin 3))
      = v29 (ix3 (0 : Fin 1) (0 : Fin 1) (2 : Fin 3)) + ∑ q : Fin 1000, v4 (ix2 q (0 : Fin 4)) * v4 (ix2 q (2 : Fin 4)) := by
  unfold k0_pay2
  refine (addf_apply _ _ _).trans ?_
  refine congrArg₂ (· + ·) (congrFun (shapeCast_self v29 _) _) ?_
  refine (cast_row _ _ 2).trans ?_
  refine (cat3_apply2 _ _ _ _).trans ?_
  refine (cast_one _ _).trans ?_
  refine (colSum _ _ _ _).trans ?_
  refine Finset.sum_congr rfl fun q _ => ?_
  refine (mulf_apply _ _ _).trans ?_
  refine congrArg₂ (· * ·) ((slice_col _ 0 _ q).trans ?_) ((slice_col _ 2 _ q).trans ?_)
  · exact congrFun (shapeCast_self v4 _) _
  · exact congrFun (shapeCast_self v4 _) _

end Cert.KernelIdeal.Pay

end
-- ==== Proof.Fold.lean ====
/-
  The accumulator's recursion over the grid points, on the extended reals.
  An accumulator entry is reset (to zero plus the point's term) at every point whose number is a
  multiple of 50 and has the point's term added at every other point. After the last point of a
  range, 50 p + 49, it holds the sum of the range's 50 terms: zero is neutral for the extended reals'
  addition and the terms are added first to last.
-/
import Idealize.ShloMosaic.PureOps.Ideal

noncomputable section

open scoped BigOperators

namespace Cert.BoxLoss

/-- The entry after point `n`, given each point's term. -/
def accR (s : ℕ → EReal) : ℕ → EReal
  | 0 => 0 + s 0
  | n + 1 => if (n + 1) % 50 = 0 then 0 + s (n + 1) else accR s n + s (n + 1)

theorem accR_zero (s : ℕ → EReal) : accR s 0 = 0 + s 0 := rfl
theorem accR_reset (s : ℕ → EReal) (n : ℕ) (h : (n + 1) % 50 = 0) : accR s (n + 1) = 0 + s (n + 1) := by
  rw [accR, if_pos h]
theorem accR_add (s : ℕ → EReal) (n : ℕ) (h : ¬(n + 1) % 50 = 0) : accR s (n + 1) = accR s n + s (n + 1) := by
  rw [accR, if_neg h]

/-- Inside a range: after the range's point number `j` the entry is the sum of its first `j + 1` terms. -/
theorem accR_range (s : ℕ → EReal) (p : ℕ) : ∀ j : ℕ, j < 50 → accR s (50 * p + j) = ∑ i ∈ Finset.range (j + 1), s (50 * p + i)
  | 0, _ => by
    rw [Finset.sum_range_one]
    cases p with
    | zero => exact (accR_zero s).trans (zero_add _)
    | succ p =>
      have e : 50 * (p + 1) + 0 = (50 * p + 49) + 1 := by omega
      rw [e, accR_reset s _ (by omega), zero_add]
  | j + 1, hj => by
    have e : 50 * p + (j + 1) = (50 * p + j) + 1 := by omega
    rw [e, accR_add s _ (by omega), accR_range s p j (by omega), Finset.sum_range_succ (fun i => s (50 * p + i)) (j + 1)]
    rfl

/-- At the range's last point: the sum of the range's 50 terms. -/
theorem accR_end (s : ℕ → EReal) (p : ℕ) : accR s (50 * p + 49) = ∑ i : Fin 50, s (50 * p + i.val) := by
  rw [accR_range s p 49 (by omega), Finset.sum_range]

end Cert.BoxLoss

end
-- ==== Proof.KI.Acc.lean ====
/-
  The accumulator row point by point, and the result array, over the extended reals.
  Entry k of the row after point n is the fold of the points' k-th partial sums: reset at the first
  point of each core's range, added to at the others. A block's partial sums are sums over its 1000
  rows of the loss's per-row terms at row 1000 t + q, because the block's entries are the arrays'
  entries there and the label converted to a float and back is the label. The row is written back
  after the last point of each range, into row p of the [2, 1, 3] result array: so that array's entry
  (p, 0, k) is the sum over the range's 50 blocks of the k-th partial sums.
-/
import proofs.«116378_j19963007991831_2_alg».proof.Proof.KI.Pieces
import proofs.«116378_j19963007991831_2_alg».proof.Proof.KI.Blocks
import proofs.«116378_j19963007991831_2_alg».proof.Proof.KI.Payload
import proofs.«116378_j19963007991831_2_alg».proof.Proof.Spec
import proofs.«116378_j19963007991831_2_alg».proof.Proof.Fold

noncomputable section

open scoped BigOperators
open Idealize.ShloMosaic Idealize.ShloMosaic.TcCoe Idealize.SL.Sem Idealize.ShloMosaic.Tactic
open Idealize.ShloMosaic.Pipeline (Dat)
open Idealize.ShloMosaic.ValueIdx

namespace Cert.KernelIdeal.Val

open Cert.KernelIdeal Cert.KernelIdeal.Gen Cert.KernelIdeal.Fr Cert.KernelIdeal.Pay Cert.BoxLoss

variable (m : (ℓ : Loc nD τ sig) → Buf (Elt Ideal) ℓ)

/-! ## A block's partial sums -/

/-- The k-th partial sum of a block: k = 0 the z-weighted logs, k = 1 the r-weighted logs, otherwise the
    z-weighted distances. -/
def blockSum (k : ℕ) (v3 : Vec Ideal S1000x1024 .f32) (v4 : Vec Ideal S1000x4 .f32) : EReal :=
  if k = 0 then ∑ q : Fin 1000, v4 (ix2 q (0 : Fin 4)) * logMax (FloatOps.fptosi (F := Ideal) (φ := .f32) 32 (v4 (ix2 q (3 : Fin 4)))) (fun j : Fin 1024 => v3 (ix2 q j))
  else if k = 1 then ∑ q : Fin 1000, v4 (ix2 q (1 : Fin 4)) * logMax (FloatOps.fptosi (F := Ideal) (φ := .f32) 32 (v4 (ix2 q (3 : Fin 4)))) (fun j : Fin 1024 => v3 (ix2 q j))
  else ∑ q : Fin 1000, v4 (ix2 q (0 : Fin 4)) * v4 (ix2 q (2 : Fin 4))

/-- Entry k of the stored row: what the body found there plus the block's k-th partial sum. -/
theorem pay2_entry (k : Fin 3) (v3 : Vec Ideal S1000x1024 .f32) (v4 : Vec Ideal S1000x4 .f32) (v29 : Vec Ideal S1x1x3 .f32) :
    k0_pay2 (F := Ideal) v3 v4 v29 (ix3 (0 : Fin 1) (0 : Fin 1) k) = v29 (ix3 (0 : Fin 1) (0 : Fin 1) k) + blockSum k.val v3 v4 := by
  match k with
  | ⟨0, _⟩ => exact pay2_apply0 v3 v4 v29
  | ⟨1, _⟩ => exact pay2_apply1 v3 v4 v29
  | ⟨2, _⟩ => exact pay2_apply2 v3 v4 v29

/-- Point t's k-th partial sum (zero past the grid). -/
def sAt (c : Dev nD) (k : ℕ) (t : ℕ) : EReal :=
  if ht : t < cfg0.N then blockSum k (iblk m c 0 ⟨t, ht⟩) (iblk m c 1 ⟨t, ht⟩) else 0

/-! ## The row after each point -/

/-- Entry k of the accumulator row after point n is the fold of the points' k-th partial sums. -/
theorem outsAt_entry (c : Dev nD) : ∀ (n : ℕ) (h : n < cfg0.N) (k : Fin 3),
    outsAt0 m c n h (ix3 (0 : Fin 1) (0 : Fin 1) k) = accR (sAt m c k.val) n
  | 0, h, k => by
    have e := congrFun ((outsAt0_A m c ⟨0, h⟩ rfl).trans (out_A ..)) (ix3 (0 : Fin 1) (0 : Fin 1) k)
    refine e.trans ?_
    rw [pay2_entry, pay1_apply, accR_zero]
    unfold sAt
    rw [dif_pos h]
  | n + 1, h, k => by
    by_cases h0 : (n + 1) % 50 = 0
    · have e := congrFun ((outsAt0_A m c ⟨n + 1, h⟩ h0).trans (out_A ..)) (ix3 (0 : Fin 1) (0 : Fin 1) k)
      refine e.trans ?_
      rw [pay2_entry, pay1_apply, accR_reset _ _ h0]
      unfold sAt
      rw [dif_pos h]
    · have e := congrFun ((outsAt0_B m c ⟨n + 1, h⟩ h0).trans (out_B ..)) (ix3 (0 : Fin 1) (0 : Fin 1) k)
      refine e.trans ?_
      rw [pay2_entry, accR_add _ _ h0]
      refine congrArg₂ (· + ·) (outsAt_entry c n (Nat.lt_of_succ_lt h) k) ?_
      unfold sAt
      rw [dif_pos h]

/-! ## A block's partial sums are sums of the loss's per-row terms -/

/-- The arrays the loss is a function of, as the program was launched with them. -/
abbrev csOf (c : Dev nD) : SNC.Idx → EReal := m ((c : Thread nD τ).loc main_arg0)
abbrev zOf (c : Dev nD) : SN.Idx → EReal := m ((c : Thread nD τ).loc main_arg2)
abbrev rOf (c : Dev nD) : SN.Idx → EReal := m ((c : Thread nD τ).loc main_arg3)
abbrev labOf (c : Dev nD) : SN.Idx → BitVec 32 := labels (F := Ideal) (m ((c : Thread nD τ).loc main_arg4)) (m ((c : Thread nD τ).loc main_arg5))
abbrev distOf (c : Dev nD) : SN.Idx → EReal :=
  dists (F := Ideal) (m ((c : Thread nD τ).loc main_arg1)) (m ((c : Thread nD τ).loc main_arg4)) (m ((c : Thread nD τ).loc main_arg6))

theorem blockSum0 (c : Dev nD) (t : Fin cfg0.N) :
    blockSum 0 (iblk m c 0 t) (iblk m c 1 t) = ∑ q : Fin 1000, termA (csOf m c) (zOf m c) (labOf m c) (rowAt t q) := by
  unfold blockSum
  rw [if_pos rfl]
  refine Finset.sum_congr rfl fun q _ => ?_
  obtain ⟨p0, p1, p2, p3⟩ := packed_apply m c (rowAt t q)
  unfold termA
  rw [iblk1_apply m c t q 0, iblk1_apply m c t q 3, p0, p3, fptosi_sitofp]
  refine congrArg (fun f => _ * logMax _ f) (funext fun j => ?_)
  exact iblk0_apply m c t q j

theorem blockSum1 (c : Dev nD) (t : Fin cfg0.N) :
    blockSum 1 (iblk m c 0 t) (iblk m c 1 t) = ∑ q : Fin 1000, termA (csOf m c) (rOf m c) (labOf m c) (rowAt t q) := by
  unfold blockSum
  rw [if_neg (by decide), if_pos rfl]
  refine Finset.sum_congr rfl fun q _ => ?_
  obtain ⟨p0, p1, p2, p3⟩ := packed_apply m c (rowAt t q)
  unfold termA
  rw [iblk1_apply m c t q 1, iblk1_apply m c t q 3, p1, p3, fptosi_sitofp]
  refine congrArg (fun f => _ * logMax _ f) (funext fun j => ?_)
  exact iblk0_apply m c t q j

theorem blockSum2 (c : Dev nD) (t : Fin cfg0.N) :
    blockSum 2 (iblk m c 0 t) (iblk m c 1 t) = ∑ q : Fin 1000, termD (zOf m c) (distOf m c) (rowAt t q) := by
  unfold blockSum
  rw [if_neg (by decide), if_neg (by decide)]
  refine Finset.sum_congr rfl fun q _ => ?_
  obtain ⟨p0, p1, p2, p3⟩ := packed_apply m c (rowAt t q)
  unfold termD
  rw [iblk1_apply m c t q 0, iblk1_apply m c t q 2, p0, p2]

/-! ## The result array -/

/-- What the [2, 1, 3] result array ends holding: entry (p, 0, k) is the fold at the last point of range p. -/
def accArr (c : Dev nD) : S2x1x3.Idx → EReal :=
  fun i => accR (sAt m c (i 2).val) (50 * (i 0).val + 49)

/-- A row's entry depends only on its last coordinate (the other two axes have extent one). -/
theorem row_entry (v : S1x1x3.Idx → EReal) (j : S1x1x3.Idx) :
    v j = v (ix3 (0 : Fin 1) (0 : Fin 1) (⟨(j 2).val, (j 2).isLt⟩ : Fin 3)) := by
  refine congrArg v (funext fun a => Fin.ext ?_)
  match a with
  | ⟨0, _⟩ => have h0 : (j 0).val < 1 := (j 0).isLt; show (j 0).val = 0; omega
  | ⟨1, _⟩ => have h1 : (j 1).val < 1 := (j 1).isLt; show (j 1).val = 0; omega
  | ⟨2, _⟩ => rfl

/-- What a write-back writes is the block of `accArr` it covers. -/
theorem flushed_eq (c : Dev nD) (t : Fin cfg0.N) (hf : (cfg0.win 2).flush t = true) :
    (dats m 0 c).flushed 2 t = ((cfg0.win 2).blk t).view.read (Elt Ideal) (accArr m c) := by
  have hN : t.val < 100 := lt_of_lt_of_eq t.isLt (show cfg0.N = 100 from N_0)
  have h49 : t.val % 50 = 49 := (flush0_2 t).mp hf
  obtain ⟨-, -, -, -, i0, i1, i2⟩ := idx_facts t
  show (cfg0.win 2).cut (grid0.coords t) ((dats m 0 c).after 2 t) = _
  rw [after0_2]
  funext j
  rw [View.read_apply]
  show outsAt0 m c t.val t.isLt j = accArr m c (((cfg0.win 2).blk t).view.emb j)
  rw [row_entry (outsAt0 m c t.val t.isLt) j, outsAt_entry]
  unfold accArr
  have e0 : ((((cfg0.win 2).blk t).view.emb j) 0).val = t.val / 50 := by
    show win0_2.index t 0 * 1 + 1 * (j 0).val = t.val / 50
    have hj0 : (j 0).val < 1 := (j 0).isLt; rw [i0]; omega
  have e2 : ((((cfg0.win 2).blk t).view.emb j) 2).val = (j 2).val := by
    show win0_2.index t 2 * 3 + 1 * (j 2).val = (j 2).val
    rw [i2]; omega
  rw [e0, e2]
  exact congrArg (accR (sAt m c (j 2).val)) (by omega)

/-- Membership in a write-back's block, axis by axis. -/
theorem mem_blk (t : Fin cfg0.N) (i : S2x1x3.Idx) :
    i ∈ ((cfg0.win 2).blk t).view.set ↔ ∀ a : Fin 3, win0_2.index t a * S1x1x3.size a ≤ (i a).val ∧ (i a).val < win0_2.index t a * S1x1x3.size a + S1x1x3.size a := by
  show i ∈ ((View.whole main_v23).slice (win0_2.rect t)).set ↔ _
  rw [View.set_slice_whole, Rect.mem_set_unit]
  exact Iff.rfl

/-- The two write-backs (after points 49 and 99) cover the array, so it ends at `accArr`. -/
theorem final (c : Dev nD) : (dats m 0 c).arrAt 2 cfg0.N = accArr m c :=
  (dats m 0 c).arrAt_eq_of_cover 2 (accArr m c) (flushed_eq m c) fun i => by
    have hp : (i 0).val < 2 := (i 0).isLt
    have h1 : (i 1).val < 1 := (i 1).isLt
    have h2 : (i 2).val < 3 := (i 2).isLt
    let t : Fin cfg0.N := ⟨50 * (i 0).val + 49, by rw [show cfg0.N = 100 from N_0]; omega⟩
    obtain ⟨-, -, -, -, i0, i1, i2⟩ := idx_facts t
    have htv : t.val = 50 * (i 0).val + 49 := rfl
    refine ⟨t, (flush0_2 t).mpr (by rw [htv]; omega), ?_⟩
    rw [mem_blk]
    intro a
    match a with
    | ⟨0, _⟩ => show win0_2.index t 0 * 1 ≤ (i 0).val ∧ (i 0).val < win0_2.index t 0 * 1 + 1; rw [i0, htv]; omega
    | ⟨1, _⟩ => show win0_2.index t 1 * 1 ≤ (i 1).val ∧ (i 1).val < win0_2.index t 1 * 1 + 1; rw [i1]; omega
    | ⟨2, _⟩ => show win0_2.index t 2 * 3 ≤ (i 2).val ∧ (i 2).val < win0_2.index t 2 * 3 + 3; rw [i2]; omega

/-- Row (core, step, q) of the spec is row q of block 50 p + i. -/
theorem rowAt_eq (p : Fin 2) (i : Fin 50) (q : Fin 1000) (h : 50 * p.val + i.val < cfg0.N) :
    rowAt ⟨50 * p.val + i.val, h⟩ q = rowOf p i q := by
  apply Fin.ext
  show 1000 * (50 * p.val + i.val) + q.val = (p.val * 50 + i.val) * 1000 + q.val
  ring

/-- Entry (p, 0, k) of the result array: the sum over core p's 50 blocks and each block's 1000 rows of
    the k-th per-row term. -/
theorem accArr_entry (c : Dev nD) (p : Fin 2) :
    accArr m c (ix3 p (0 : Fin 1) (0 : Fin 3)) = ∑ i : Fin 50, ∑ q : Fin 1000, termA (csOf m c) (zOf m c) (labOf m c) (rowOf p i q)
    ∧ accArr m c (ix3 p (0 : Fin 1) (1 : Fin 3)) = ∑ i : Fin 50, ∑ q : Fin 1000, termA (csOf m c) (rOf m c) (labOf m c) (rowOf p i q)
    ∧ accArr m c (ix3 p (0 : Fin 1) (2 : Fin 3)) = ∑ i : Fin 50, ∑ q : Fin 1000, termD (zOf m c) (distOf m c) (rowOf p i q) := by
  have hp := p.isLt
  have hlt : ∀ i : Fin 50, 50 * p.val + i.val < cfg0.N := fun i => by
    rw [show cfg0.N = 100 from N_0]; have := i.isLt; omega
  refine ⟨?_, ?_, ?_⟩
  · show accR (sAt m c 0) (50 * p.val + 49) = _
    rw [accR_end]
    refine Finset.sum_congr rfl fun i _ => ?_
    unfold sAt
    rw [dif_pos (hlt i), blockSum0]
    exact Finset.sum_congr rfl fun q _ => congrArg _ (rowAt_eq p i q (hlt i))
  · show accR (sAt m c 1) (50 * p.val + 49) = _
    rw [accR_end]
    refine Finset.sum_congr rfl fun i _ => ?_
    unfold sAt
    rw [dif_pos (hlt i), blockSum1]
    exact Finset.sum_congr rfl fun q _ => congrArg _ (rowAt_eq p i q (hlt i))
  · show accR (sAt m c 2) (50 * p.val + 49) = _
    rw [accR_end]
    refine Finset.sum_congr rfl fun i _ => ?_
    unfold sAt
    rw [dif_pos (hlt i), blockSum2]
    exact Finset.sum_congr rfl fun q _ => congrArg _ (rowAt_eq p i q (hlt i))

end Cert.KernelIdeal.Val

end
-- ==== Proof.LibSqueeze.lean ====
/-
  A column [a, 1] flattened to the vector [a] (the host's reshape after a reduction that kept its axis),
  read at an index written by coordinates.
-/
import Idealize.ShloMosaic.Lib.Pipeline.Value
import Idealize.ShloMosaic.Lib.ValueIdx

namespace Idealize.ShloMosaic.ValueIdx

variable {α : Type}

/-- An `[a, 1]` column cast to the vector `[a]` reads, at `i`, the column's entry of row `i`: both indices
    have row-major position `i`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Idealize.ShloMosaic.ValueIdx
-- ==== Proof.LibFlat.lean ====
/-
  A kept unit axis in the middle flattened away: an [a, 1, c] array cast to [a, c], read at an index
  written by coordinates. Both indices have the same row-major position, a-coordinate times c plus
  c-coordinate.
-/
import Idealize.ShloMosaic.Lib.Pipeline.Value
import Idealize.ShloMosaic.Lib.ValueIdx

namespace Cert.LibFlat

open Idealize.ShloMosaic Idealize.ShloMosaic.ValueIdx

variable {α : Type}

/-- An `[a, 1, c]` array cast to `[a, c]` reads, at `(p, k)`, the operand at `(p, 0, k)`. -/
theorem shapeCast_a1c_ac_apply {a c : ℕ} (x : (⟨3, ![a, 1, c]⟩ : Shape).Idx → α)
    (h : (⟨3, ![a, 1, c]⟩ : Shape).ShapeCasts ⟨2, ![a, c]⟩) (p : Fin a) (k : Fin c) :
    shapeCast ⟨2, ![a, c]⟩ x h (ix2 p k) = x (ix3 p (0 : Fin 1) k) :=
  shapeCast_apply x h _ _ (by
    rw [Shape.rowMajor_val_three, Shape.rowMajor_val_two]
    show (p.val * 1 + 0) * c + k.val = p.val * c + k.val
    rw [Nat.mul_one, Nat.add_zero])

end Cert.LibFlat
-- ==== Proof.KI.Tail.lean ====
/-
  The host lines after the region, over the extended reals, and the kernel program's result.
  The 20 lines read the [2, 1, 3] result array as a [2, 3] matrix, and for each of its three columns add
  the two cores' entries from zero; the first and second column sums are negated, the third is negated
  and exponentiated, and the three are added: (-A + exp (-D)) + -B, as a one-element vector.
  A column sum of the result array is the sum over the two cores of the sums over each core's 50 blocks
  and each block's 1000 rows of the per-row terms, which is the sum over all 100000 rows: so the kernel
  program's result is the loss of the launched arrays.
-/
import proofs.«116378_j19963007991831_2_alg».proof.Proof.KI.Acc
import proofs.«116378_j19963007991831_2_alg».proof.Proof.LibSqueeze
import proofs.«116378_j19963007991831_2_alg».proof.Proof.LibFlat
import Idealize.ShloMosaic.Lib.IdealHost

noncomputable section

open scoped BigOperators
open Idealize.ShloMosaic Idealize.ShloMosaic.TcCoe Idealize.SL.Sem Idealize.ShloMosaic.Tactic
open Idealize.ShloMosaic.Pipeline (Dat)
open Idealize.ShloMosaic.ValueIdx

namespace Cert.KernelIdeal.Val

open Cert.KernelIdeal Cert.KernelIdeal.Gen Cert.KernelIdeal.Fr Cert.BoxLoss

section Tail
variable {F : FTy → Type} [FloatOps F]

/-- The combined value the host lines compute from the [2, 1, 3] result array, as a rank-0 array. -/
def tailCore (acc : (⟨S2x1x3, .f32⟩ : BufTy).Contents (Elt F)) : (⟨S_, .f32⟩ : BufTy).Contents (Elt F) :=
  addf
    (addf (Host.negf (Host.reduceAdd (shapeCast S2 (extractStridedSlice S2x1 ![0, 0] (shapeCast S2x3 acc shapeCasts_S2x1x3_S2x3) slices_S2x3_S2x1_0_0) shapeCasts_S2x1_S2) (constant S_ .f32 0x00000000#32) reducesTo_S2_S_d0 h_S_))
      (Host.exp (Host.negf (Host.reduceAdd (shapeCast S2 (extractStridedSlice S2x1 ![0, 2] (shapeCast S2x3 acc shapeCasts_S2x1x3_S2x3) slices_S2x3_S2x1_0_2) shapeCasts_S2x1_S2) (constant S_ .f32 0x00000000#32) reducesTo_S2_S_d0 h_S_))))
    (Host.negf (Host.reduceAdd (shapeCast S2 (extractStridedSlice S2x1 ![0, 1] (shapeCast S2x3 acc shapeCasts_S2x1x3_S2x3) slices_S2x3_S2x1_0_1) shapeCasts_S2x1_S2) (constant S_ .f32 0x00000000#32) reducesTo_S2_S_d0 h_S_))

/-- The host lines after the region as one function of the [2, 1, 3] result array: that value as a
    one-element vector. -/
def tailOf (acc : (⟨S2x1x3, .f32⟩ : BufTy).Contents (Elt F)) : (⟨S1, .f32⟩ : BufTy).Contents (Elt F) :=
  shapeCast S1 (tailCore acc) shapeCasts_S_S1

/-- The program's result buffer after the run's post: the host lines applied to the final result array. -/
theorem result_tail (m : (ℓ : Loc nD τ sig) → Buf (Elt F) ℓ) (c : Dev nD) :
    Pipeline.afterTail₀ cfgs (dats m) 0 (V0 m) [hostOps1] c main_v40 = tailOf ((dats m 0 c).arrAt 2 cfg0.N) := by
  unfold Pipeline.afterTail₀
  have e := Pipeline.withArrays_arr (τ := τ) spec0 launch0.win.arr_inj c (V0 m c) (fun w => (dats m 0 c).arrAt w cfg0.N) 2
  generalize Pipeline.withArrays _ c _ _ = W at e ⊢
  rw [List.flatten_cons, List.flatten_nil, List.append_nil]
  after_results_simp
  rw [show W (Proc.devRef .tc main_v23) = (dats m 0 c).arrAt 2 cfg0.N from e]
  rfl

end Tail

/-! ## A column sum of the result array -/

/-- The host's sum of column k of the [2, 1, 3] array over its two rows, from zero. -/
theorem colSum (acc : S2x1x3.Idx → EReal) (off : Fin 2 → Nat) (k : Fin 3) (h0 : off 0 = 0) (h1 : off 1 = k.val)
    (hs : S2x3.Slices off S2x1) (i : S_.Idx) :
    Host.reduceAdd (F := Ideal) (φ := .f32) (shapeCast S2 (extractStridedSlice S2x1 off (shapeCast S2x3 acc shapeCasts_S2x1x3_S2x3) hs) shapeCasts_S2x1_S2)
        (constant (F := Ideal) S_ .f32 0x00000000#32) reducesTo_S2_S_d0 h_S_ i
      = ∑ p : Fin 2, acc (ix3 p (0 : Fin 1) k) := by
  generalize hy : shapeCast S2 (extractStridedSlice S2x1 off (shapeCast S2x3 acc shapeCasts_S2x1x3_S2x3) hs) shapeCasts_S2x1_S2 = y0
  simp only [Host.reduceAdd, Ideal.hostReduceAdd_def]
  refine (Ideal.hostReduceAdd_total reducesTo_S2_S_d0 (fun b => b.elim0) y0 _ i).trans ?_
  rw [constant_apply, Ideal.ofBits_zero_f32, zero_add]
  refine (sum_idx1 _).trans (Finset.sum_congr rfl fun p _ => ?_)
  subst hy
  refine (shapeCast_a1_a_apply _ shapeCasts_S2x1_S2 p).trans ?_
  refine (extractStridedSlice_apply off _ hs (ix2 p (0 : Fin 1)) (ix2 p k) fun a => ?_).trans ?_
  · match a with
    | ⟨0, _⟩ => show p.val = off 0 + p.val; rw [h0]; omega
    | ⟨1, _⟩ => show k.val = off 1 + 0; rw [h1]; omega
  · exact Cert.LibFlat.shapeCast_a1c_ac_apply acc shapeCasts_S2x1x3_S2x3 p k

/-- The tail at its one index: the loss's combination of the three column sums. -/
theorem tailOf_apply (acc : S2x1x3.Idx → EReal) (j : S1.Idx) :
    tailOf (F := Ideal) acc j
      = combine (∑ p : Fin 2, acc (ix3 p (0 : Fin 1) (0 : Fin 3))) (∑ p : Fin 2, acc (ix3 p (0 : Fin 1) (1 : Fin 3)))
          (∑ p : Fin 2, acc (ix3 p (0 : Fin 1) (2 : Fin 3))) := by
  show tailCore (F := Ideal) acc (Shape.reshapeEquiv shapeCasts_S_S1 j) = _
  generalize Shape.reshapeEquiv shapeCasts_S_S1 j = i
  unfold tailCore
  show FloatOps.addf (FloatOps.addf (FloatOps.hostNegf (Host.reduceAdd (F := Ideal) _ _ reducesTo_S2_S_d0 h_S_ i))
      (FloatOps.hostUnary .exp (FloatOps.hostNegf (Host.reduceAdd (F := Ideal) _ _ reducesTo_S2_S_d0 h_S_ i))))
      (FloatOps.hostNegf (Host.reduceAdd (F := Ideal) _ _ reducesTo_S2_S_d0 h_S_ i)) = _
  rw [colSum acc ![0, 0] 0 rfl rfl slices_S2x3_S2x1_0_0 i, colSum acc ![0, 2] 2 rfl rfl slices_S2x3_S2x1_0_2 i,
    colSum acc ![0, 1] 1 rfl rfl slices_S2x3_S2x1_0_1 i]
  simp only [Ideal.addf_def, Ideal.hostNegf_def, Ideal.negf_def, Ideal.hostUnary_exp_def]
  rfl

/-! ## The kernel program's result is the loss -/

variable (m : (ℓ : Loc nD τ sig) → Buf (Elt Ideal) ℓ)

/-- The result buffer after the run: the loss of the launched scores, weights, labels and distances. -/
theorem result_loss (c : Dev nD) :
    Pipeline.afterTail₀ cfgs (dats m) 0 (V0 m) [hostOps1] c main_v40
      = fun _ => loss (csOf m c) (zOf m c) (rOf m c) (labOf m c) (distOf m c) := by
  rw [result_tail, final]
  funext j
  rw [tailOf_apply]
  unfold loss
  have hA : ∑ p : Fin 2, accArr m c (ix3 p (0 : Fin 1) (0 : Fin 3)) = ∑ n : Fin 100000, termA (csOf m c) (zOf m c) (labOf m c) n :=
    (Finset.sum_congr rfl fun p _ => (accArr_entry m c p).1).trans (sum_blocks _)
  have hB : ∑ p : Fin 2, accArr m c (ix3 p (0 : Fin 1) (1 : Fin 3)) = ∑ n : Fin 100000, termA (csOf m c) (rOf m c) (labOf m c) n :=
    (Finset.sum_congr rfl fun p _ => (accArr_entry m c p).2.1).trans (sum_blocks _)
  have hD : ∑ p : Fin 2, accArr m c (ix3 p (0 : Fin 1) (2 : Fin 3)) = ∑ n : Fin 100000, termD (zOf m c) (distOf m c) n :=
    (Finset.sum_congr rfl fun p _ => (accArr_entry m c p).2.2).trans (sum_blocks _)
  rw [hA, hB, hD]

/-! ## The run, read -/

/-- Every weakly fair execution of the kernel program terminates with its result at the loss of the
    launched arrays and the seven argument arrays unchanged. -/
theorem run_value (ρ : Dev nD → PrngReg) :
    θ_run defs (onTc (τ := τ) (main (F := Ideal))) ⟨m, fun _ => 0, ρ⟩ (fun r => ∀ c : Dev nD,
      r.2.mem ((c.tc : Thread nD τ).loc main_v40) = (fun _ => loss (csOf m c) (zOf m c) (rOf m c) (labOf m c) (distOf m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v40 (Pipeline.mem_restRefs_of main_v40 (by decide) (by decide))).trans (result_loss m c),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c),
     ((h c).2 main_arg5 (Pipeline.mem_restRefs_of main_arg5 (by decide) (by decide))).trans (W_main_arg5 m (dats m) c),
     ((h c).2 main_arg6 (Pipeline.mem_restRefs_of main_arg6 (by decide) (by decide))).trans (W_main_arg6 m (dats m) c)⟩)
    (run_main m ρ)

end Cert.KernelIdeal.Val

end
-- ==== Proof.RefSide.lean ====
/-
  The reference program's result, at the ideal float values (every float an extended real, every operation exact),
  is the specification's loss of its arguments.

  The program masks the score matrix: at row n and class j it compares the class number j, as a 32-bit word, with the
  row's looked-up label, and keeps zero where they agree and the score where they differ. That is the specification's
  masked score (masked_at). It then takes each row's maximum from minus infinity over the 1024 classes; a maximum is
  commutative and associative, so the reduction over the class axis is the fold of max over the class coordinates, and
  the index of row n with class j inserted on the dropped axis is (n, j) (rowMax_at). The logarithm of that maximum times
  a row weight is the specification's per-row term (termA_at).

  The three totals are sums from the zero literal over every row index; zero is the additive identity, and a sum over
  the rank-1 index set is the sum over its one coordinate (totalA, totalB, totalD). The result is
  (-A + exp (-D)) + -B read at the one index of a one-element vector reshaped from the rank-0 value (result_eq).

  The looked-up labels and the squared distances are never opened: both sides of the statement carry them as the same
  arrays.
-/
import proofs.«116378_j19963007991831_2_alg».proof.Proof.Spec
import proofs.«116378_j19963007991831_2_alg».proof.Proof.Gen.ReferenceIdeal.Read
import Idealize.ShloMosaic.PureOps.ShapeOps
import Idealize.ShloMosaic.PureOps.Reduce
import Idealize.ShloMosaic.PureOps.Ideal
import Idealize.ShloMosaic.PureOps.Ideal.Laws
import Idealize.ShloMosaic.Lib.ValueIdx

noncomputable section

open scoped BigOperators

namespace Cert.RefSide

open Idealize.ShloMosaic Idealize.ShloMosaic.ValueIdx Cert.ReferenceIdeal Cert.ReferenceIdeal.Gen Cert.ReferenceIdeal.Read Cert.BoxLoss

/-- One masked score: the reference's selected matrix at row n, class j. -/
theorem masked_at (x0 : (⟨S100000x1024, .f32⟩ : BufTy).Contents (Elt Ideal)) (x4 : (⟨S100000, .i32⟩ : BufTy).Contents (Elt Ideal))
    (x5 : (⟨S128, .i32⟩ : BufTy).Contents (Elt Ideal)) (n : Fin 100000) (j : Fin 1024) :
    val_main_v13 (F := Ideal) x0 x4 x5 (ix2 n j)
      = masked (val_main_v6 (F := Ideal) x4 x5 (ix1 n)) j (x0 (ix2 n j)) := by
  rw [val_main_v13_apply, val_main_v12_apply, val_main_v10_apply, val_main_v8_apply, val_main_v7_apply,
    val_main_v11_apply, val_main_v9_apply, val_main_call0_v0_apply, val_main_cst_apply]
  have e : idx_main_v9 (idx_main_v11 (ix2 n j)) = ix1 n := by
    funext a; match a with | ⟨0, _⟩ => rfl
  rw [e, Ideal.ofBits_def, Ideal.ofBits_zero_f32]
  rfl

/-- Dropping the class axis of the score matrix leaves the row axis. -/
theorem reduces_rows : S100000x1024.Reduces [1] S100000 := by decide

/-- The reference's row maximum at row n: the fold of max from minus infinity over the row's masked scores. -/
theorem rowMax_at (x0 : (⟨S100000x1024, .f32⟩ : BufTy).Contents (Elt Ideal)) (x4 : (⟨S100000, .i32⟩ : BufTy).Contents (Elt Ideal))
    (x5 : (⟨S128, .i32⟩ : BufTy).Contents (Elt Ideal)) (n : Fin 100000) :
    val_main_v14 (F := Ideal) x0 x4 x5 (ix1 n)
      = (Finset.univ : Finset (Fin 1024)).fold max (Ideal.ofBits .f32 0xFF800000#32)
          (fun j => masked (val_main_v6 (F := Ideal) x4 x5 (ix1 n)) j (x0 (ix2 n j))) := by
  unfold val_main_v14
  refine (Host.reduce_eq_fold_single FloatOps.maximumf _ _ reducesTo_S100000x1024_S100000_d1 reduces_rows h_S_ (ix1 n)).trans ?_
  have hl : ∀ j : Fin 1024, reduces_rows.lift (ix1 n) j = ix2 n j := fun j => by
    funext a; apply Fin.ext; match a with | ⟨0, _⟩ => rfl | ⟨1, _⟩ => rfl
  refine congrArg (fun f => Finset.fold max (Ideal.ofBits .f32 0xFF800000#32) f (Finset.univ : Finset (Fin 1024))) (funext fun (j : Fin 1024) => ?_)
  exact (congrArg (val_main_v13 (F := Ideal) x0 x4 x5) (hl j)).trans (masked_at x0 x4 x5 n j)

/-- Row n's term of a weighted total of the rows' logarithms, for either weight vector w. -/
theorem termA_at (x0 : (⟨S100000x1024, .f32⟩ : BufTy).Contents (Elt Ideal)) (w : (⟨S100000, .f32⟩ : BufTy).Contents (Elt Ideal))
    (x4 : (⟨S100000, .i32⟩ : BufTy).Contents (Elt Ideal)) (x5 : (⟨S128, .i32⟩ : BufTy).Contents (Elt Ideal)) (n : Fin 100000) :
    w (ix1 n) * Ideal.log (val_main_v14 (F := Ideal) x0 x4 x5 (ix1 n))
      = termA x0 w (val_main_v6 (F := Ideal) x4 x5) n := by
  rw [rowMax_at]; rfl

/-- The first total: the sum over the rows of the first weight times the row's logarithm. -/
theorem totalA (x0 : (⟨S100000x1024, .f32⟩ : BufTy).Contents (Elt Ideal)) (x2 : (⟨S100000, .f32⟩ : BufTy).Contents (Elt Ideal))
    (x4 : (⟨S100000, .i32⟩ : BufTy).Contents (Elt Ideal)) (x5 : (⟨S128, .i32⟩ : BufTy).Contents (Elt Ideal)) (i : S_.Idx) :
    val_main_v17 (F := Ideal) x0 x2 x4 x5 i = ∑ n : Fin 100000, termA x0 x2 (val_main_v6 (F := Ideal) x4 x5) n := by
  rw [val_main_v17_apply, val_main_cst_2_apply, Ideal.ofBits_def, Ideal.ofBits_zero_f32, zero_add]
  refine (sum_idx1 _).trans (Finset.sum_congr rfl fun n _ => ?_)
  rw [val_main_v16_apply, val_main_v15_apply, Ideal.mulf_def, Ideal.hostUnary_log_def]
  exact termA_at x0 x2 x4 x5 n

/-- The second total: the same with the second weight vector. -/
theorem totalB (x0 : (⟨S100000x1024, .f32⟩ : BufTy).Contents (Elt Ideal)) (x3 : (⟨S100000, .f32⟩ : BufTy).Contents (Elt Ideal))
    (x4 : (⟨S100000, .i32⟩ : BufTy).Contents (Elt Ideal)) (x5 : (⟨S128, .i32⟩ : BufTy).Contents (Elt Ideal)) (i : S_.Idx) :
    val_main_v20 (F := Ideal) x0 x3 x4 x5 i = ∑ n : Fin 100000, termA x0 x3 (val_main_v6 (F := Ideal) x4 x5) n := by
  rw [val_main_v20_apply, val_main_cst_3_apply, Ideal.ofBits_def, Ideal.ofBits_zero_f32, zero_add]
  refine (sum_idx1 _).trans (Finset.sum_congr rfl fun n _ => ?_)
  rw [val_main_v19_apply, val_main_v15_apply, Ideal.mulf_def, Ideal.hostUnary_log_def]
  exact termA_at x0 x3 x4 x5 n

/-- The third total: the sum over the rows of the first weight times the row's squared distance. -/
theorem totalD (x1 : (⟨S100000x4, .f32⟩ : BufTy).Contents (Elt Ideal)) (x2 : (⟨S100000, .f32⟩ : BufTy).Contents (Elt Ideal))
    (x4 : (⟨S100000, .i32⟩ : BufTy).Contents (Elt Ideal)) (x6 : (⟨S128x4, .f32⟩ : BufTy).Contents (Elt Ideal)) (i : S_.Idx) :
    val_main_v33 (F := Ideal) x1 x2 x4 x6 i = ∑ n : Fin 100000, termD x2 (val_main_v31 (F := Ideal) x1 x4 x6) n := by
  rw [val_main_v33_apply, val_main_cst_7_apply, Ideal.ofBits_def, Ideal.ofBits_zero_f32, zero_add]
  refine (sum_idx1 _).trans (Finset.sum_congr rfl fun n _ => ?_)
  rw [val_main_v32_apply, Ideal.mulf_def]
  rfl

/-- The reference's result is the specification's loss of the scores, the two weight vectors, the looked-up labels
    and the squared distances. -/
theorem result_eq
    (x0 : (⟨Cert.ReferenceIdeal.S100000x1024, .f32⟩ : BufTy).Contents (Elt Ideal)) (x1 : (⟨Cert.ReferenceIdeal.S100000x4, .f32⟩ : BufTy).Contents (Elt Ideal))
    (x2 x3 : (⟨Cert.ReferenceIdeal.S100000, .f32⟩ : BufTy).Contents (Elt Ideal)) (x4 : (⟨Cert.ReferenceIdeal.S100000, .i32⟩ : BufTy).Contents (Elt Ideal))
    (x5 : (⟨Cert.ReferenceIdeal.S128, .i32⟩ : BufTy).Contents (Elt Ideal)) (x6 : (⟨Cert.ReferenceIdeal.S128x4, .f32⟩ : BufTy).Contents (Elt Ideal)) :
    Cert.ReferenceIdeal.Read.val_main_v38 (F := Ideal) x0 x1 x2 x3 x4 x5 x6
      = fun _ => Cert.BoxLoss.loss x0 x2 x3 (Cert.ReferenceIdeal.Read.val_main_v6 (F := Ideal) x4 x5) (Cert.ReferenceIdeal.Read.val_main_v31 (F := Ideal) x1 x4 x6) := by
  funext j
  unfold val_main_v38 shapeCast
  generalize Shape.reshapeEquiv shapeCasts_S_S1 j = i
  rw [val_main_v37_apply, val_main_v36_apply, val_main_v18_apply, val_main_v35_apply, val_main_v34_apply, val_main_v21_apply,
    totalA, totalB, totalD]
  simp only [Ideal.addf_def, Ideal.hostNegf_def, Ideal.negf_def, Ideal.hostUnary_exp_def]
  unfold loss combine
  exact rfl

end Cert.RefSide

end
-- ==== Proof.lean ====
/-
  The certificate: a Pallas kernel for a box-prediction loss against its jnp reference.

  For each of 100000 rows: the row's 1024 class scores with the score at the row's label zeroed, the
  logarithm L of the largest of them, two weights z and r, and the squared distance d from the row's box to
  its nearest ground-truth box (label and nearest box are table lookups by an index argument). The loss is
  (-A + exp (-D)) + -B with A = sum of z L, B = sum of r L, D = sum of z d over the rows.

  The reference computes the three sums over all rows at once. The kernel packs z, r, d and the label
  (converted to a float) into one [100000, 4] array on the host, then runs a 2 x 50 grid over blocks of 1000
  rows: each point recovers the label by converting back to an integer, computes the block's three partial
  sums, and adds them to a three-entry row that is reset at the first point of each core's range of 50 and
  written back after its last; the host then adds the two cores' rows and combines.

  Over the extended reals the two agree: an integer converted to a float and back is the integer; a maximum
  is the same fold on both sides; and addition is commutative and associative, so the sum over the two
  cores of the sums over 50 blocks of the sums over 1000 rows is the sum over all rows (no distributive law
  and no cancellation is used, so the finiteness precondition is not needed). The table lookups are the
  same operations on both sides and are never opened.

  Frames: neither program's frame is generated; both are proved from the launch theorem for "host lines,
  region, host lines" with the accumulator row followed point by point (Proof/K, Proof/KI). The reference's
  frame is its generated run. The ideal pass rewrote nothing, so the idealization conjunct is trivial.
-/
import proofs.«116378_j19963007991831_2_alg».proof.Defs
import proofs.«116378_j19963007991831_2_alg».proof.Proof.Gen.Kernel
import proofs.«116378_j19963007991831_2_alg».proof.Proof.Gen.KernelIdeal
import proofs.«116378_j19963007991831_2_alg».proof.Proof.Gen.ReferenceIdeal
import proofs.«116378_j19963007991831_2_alg».proof.Proof.Gen.Pre_finite_inputs
import proofs.«116378_j19963007991831_2_alg».proof.Proof.Gen.ReferenceIdeal.Run
import proofs.«116378_j19963007991831_2_alg».proof.Proof.Gen.ReferenceIdeal.Read
import proofs.«116378_j19963007991831_2_alg».proof.Proof.K.Frame
import proofs.«116378_j19963007991831_2_alg».proof.Proof.KI.Tail
import proofs.«116378_j19963007991831_2_alg».proof.Proof.RefSide

noncomputable section

namespace Cert.Proof

open Idealize.ShloMosaic Idealize.ShloMosaic.TcCoe Idealize.SL.Sem

/-- The labels the reference looks up are the labels the kernel program looks up: the same host operations. -/
theorem labels_eq (x4 : (⟨Cert.KernelIdeal.S100000, .i32⟩ : BufTy).Contents (Elt Ideal)) (x5 : (⟨Cert.KernelIdeal.S128, .i32⟩ : BufTy).Contents (Elt Ideal)) :
    Cert.ReferenceIdeal.Read.val_main_v6 (F := Ideal) x4 x5 = Cert.KernelIdeal.Val.labels (F := Ideal) x4 x5 := rfl

/-- Likewise the squared distances. -/
theorem dists_eq (x1 : (⟨Cert.KernelIdeal.S100000x4, .f32⟩ : BufTy).Contents (Elt Ideal)) (x4 : (⟨Cert.KernelIdeal.S100000, .i32⟩ : BufTy).Contents (Elt Ideal))
    (x6 : (⟨Cert.KernelIdeal.S128x4, .f32⟩ : BufTy).Contents (Elt Ideal)) :
    Cert.ReferenceIdeal.Read.val_main_v31 (F := Ideal) x1 x4 x6 = Cert.KernelIdeal.Val.dists (F := Ideal) x1 x4 x6 := rfl

theorem frame_k : Cert.frame_Kernel := fun m ρ _ => Cert.Kernel.Fr.frame m ρ
theorem frame_ki : Cert.frame_KernelIdeal := fun m ρ _ => Cert.KernelIdeal.Fr.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both idealized programs end with the loss of the (agreeing) argument arrays. -/
theorem algebraic : Cert.algebraic_KernelIdeal_ReferenceIdeal := by
  intro m ρ m' ρ' _ hagree
  refine ⟨fun c => fun _ => Cert.BoxLoss.loss (Cert.KernelIdeal.Val.csOf m c) (Cert.KernelIdeal.Val.zOf m c) (Cert.KernelIdeal.Val.rOf m c)
      (Cert.KernelIdeal.Val.labOf m c) (Cert.KernelIdeal.Val.distOf m c), Cert.KernelIdeal.Val.run_value m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v38_eq, Cert.RefSide.result_eq, a0, a1, a2, a3, a4, a5, a6, labels_eq, dists_eq]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
